-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S_ : Shape := ⟨0, ![]⟩
abbrev S65536x511 : Shape := ⟨2, ![65536, 511]⟩
abbrev S65536 : Shape := ⟨1, ![65536]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  slices_S65536x512_S65536x511_0_1 : S65536x512.Slices ![0, 1] S65536x511
  reducesTo_S65536x511_S65536_d1 : S65536x511.ReducesTo [1] S65536
  reducesTo_S65536_S_d0 : S65536.ReducesTo [0] S_

variable [Facts]

def fn {F : FTy → Type} [FloatOps F] (main_arg0 : FVec F S65536x512 .f32) (main_arg1 : FVec F S65536x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x511 .f32 := (extractStridedSlice S65536x511 ![0, 1] · slices_S65536x512_S65536x511_0_1) main_arg1
  let main_cst_2 : FVec F S_ .f32 := constant S_ .f32 0x00000000#32
  let main_v10 : FVec F S65536 .f32 := (fun x v => Host.reduceAdd x v reducesTo_S65536x511_S65536_d1 h_S_) main_v9 main_cst_2
  let main_cst_3 : FVec F S_ .f32 := constant S_ .f32 0xFF800000#32
  let main_v11 : FVec F S_ .f32 := (fun x v => Host.reduce FloatOps.maximumf x v reducesTo_S65536_S_d0 h_S_) main_v10 main_cst_3
  let main_cst_4 : FVec F S_ .f32 := constant S_ .f32 0x00000000#32
  let main_v12 : IVec S_ 1 := cmpf .ogt main_v11 main_cst_4
  let main_v13 : IVec S_ 1 := andi main_v8 main_v12
  main_v13
-- ==== Kernel.lean ====
abbrev S65536x512 : Shape := ⟨2, ![65536, 512]⟩
abbrev S2x1x1 : Shape := ⟨3, ![2, 1, 1]⟩
abbrev S2048x512 : Shape := ⟨2, ![2048, 512]⟩
abbrev S1x1x1 : Shape := ⟨3, ![1, 1, 1]⟩
abbrev S1x1 : Shape := ⟨2, ![1, 1]⟩
abbrev S2048 : Shape := ⟨1, ![2048]⟩
abbrev S2048x1 : Shape := ⟨2, ![2048, 1]⟩
abbrev S1 : Shape := ⟨1, ![1]⟩
abbrev S_ : Shape := ⟨0, ![]⟩

abbrev nBuf : Space → Nat
  | .hbm => 16
  | .vmem => 13
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S2x1x1, .f32⟩
  | .hbm, ⟨3, _⟩ => ⟨S2x1x1, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v97 : BitVec 1 := Scalar.cmpi .eq arg1 c15_i32
  let v98 : BitVec 32 := Scalar.extui v97
  let c0_i32_36 : BitVec 32 := 0#32
  let v99 : BitVec 1 := Scalar.cmpi .ne v98 c0_i32_36
  v99

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x512_S2048x512_0_0 : ∀ a, (![0, 0] : Fin 2 → Nat) a + S2048x512.size a ≤ S2048x512.size a
  h_S2048x512 : 0 < S2048x512.numel
  iota_S2048x512_d1_w32 : S2048x512.Iotas .tc 32 [1]
  reduces_S2048x512_S2048 : S2048x512.Reduces [1] S2048
  shapeCasts_S2048_S2048x1 : S2048.ShapeCasts S2048x1
  natLt_1_32 : 1 < 32
  slices_S2048x512_o0_0_S2048x1 : S2048x512.Slices ![0, 0] S2048x1
  reduces_S2048x1_S1 : S2048x1.Reduces [0] S1
  shapeCasts_S1_S1x1 : S1.ShapeCasts S1x1
  broadcasts_S2048x1_S2048x512 : S2048x1.Broadcasts S2048x512
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S65536x512.size a
  hwx0_1 : ∀ i : grid0.Coords, EltTy.bits .f32 = 32 ∨ (Rect.block (s := S65536x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S65536x512 : Shape := ⟨2, ![65536, 512]⟩
abbrev S_ : Shape := ⟨0, ![]⟩
abbrev S1 : Shape := ⟨1, ![1]⟩
abbrev S65536 : Shape := ⟨1, ![65536]⟩
abbrev S65536x1 : Shape := ⟨2, ![65536, 1]⟩

abbrev nBuf : Space → Nat
  | .hbm => 90
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S65536, .f32⟩
  | .hbm, ⟨6, _⟩ => ⟨S65536x512, .f32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .i1⟩
  | .hbm, ⟨12, _⟩ => ⟨S65536, .f32⟩
  | .hbm, ⟨13, _⟩ => ⟨S65536x1, .f32⟩
  | .hbm, ⟨14, _⟩ => ⟨S65536, .f32⟩
  | .hbm, ⟨15, _⟩ => ⟨S65536, .f32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .f32⟩
  | .hbm, ⟨20, _⟩ => ⟨S65536, .f32⟩
  | .hbm, ⟨21, _⟩ => ⟨S65536, .f32⟩
  | .hbm, ⟨22, _⟩ => ⟨S65536, .i1⟩
  | .hbm, ⟨23, _⟩ => ⟨S65536, .f32⟩
  | .hbm, ⟨24, _⟩ => ⟨S65536, .f32⟩
  | .hbm, ⟨25, _⟩ => ⟨S65536, .f32⟩
  | .hbm, ⟨26, _⟩ => ⟨S65536, .f32⟩
  | .hbm, ⟨27, _⟩ => ⟨S65536, .f32⟩
  | .hbm, ⟨28, _⟩ => ⟨S65536, .f32⟩
  | .hbm, ⟨29, _⟩ => ⟨S65536, .f32⟩
  | .hbm, ⟨30, _⟩ => ⟨S65536, .f32⟩
  | .hbm, ⟨31, _⟩ => ⟨S65536, .f32⟩
  | .hbm, ⟨32, _⟩ => ⟨S65536x512, .f32⟩
  | .hbm, ⟨33, _⟩ => ⟨S_, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S65536x512, .f32⟩
  | .hbm, ⟨38, _⟩ => ⟨S65536x512, .i1⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S65536x512, .f32⟩
  | .hbm, ⟨47, _⟩ => ⟨S65536x512, .f32⟩
  | .hbm, ⟨48, _⟩ => ⟨S65536x512, .f32⟩
  | .hbm, ⟨49, _⟩ => ⟨S_, .f32⟩
  | .hbm, ⟨50, _⟩ => ⟨S65536, .f32⟩
  | .hbm, ⟨51, _⟩ => ⟨S65536, .f32⟩
  | .hbm, ⟨52, _⟩ => ⟨S_, .f32⟩
  | .hbm, ⟨53, _⟩ => ⟨S65536, .f32⟩
  | .hbm, ⟨54, _⟩ => ⟨S65536, .f32⟩
  | .hbm, ⟨55, _⟩ => ⟨S65536, .f32⟩
  | .hbm, ⟨56, _⟩ => ⟨S_, .f32⟩
  | .hbm, ⟨57, _⟩ => ⟨S_, .f32⟩
  | .hbm, ⟨58, _⟩ => ⟨S65536, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S65536x512, .f32⟩
  | .hbm, ⟨65, _⟩ => ⟨S65536x512, .f32⟩
  | .hbm, ⟨66, _⟩ => ⟨S65536x512, .f32⟩
  | .hbm, ⟨67, _⟩ => ⟨S_, .f32⟩
  | .hbm, ⟨68, _⟩ => ⟨S65536, .f32⟩
  | .hbm, ⟨69, _⟩ => ⟨S_, .f32⟩
  | .hbm, ⟨70, _⟩ => ⟨S65536, .f32⟩
  | .hbm, ⟨71, _⟩ => ⟨S65536, .f32⟩
  | .hbm, ⟨72, _⟩ => ⟨S65536x1, .f32⟩
  | .hbm, ⟨73, _⟩ => ⟨S65536x512, .f32⟩
  | .hbm, ⟨74, _⟩ => ⟨S65536x512, .f32⟩
  | .hbm, ⟨75, _⟩ => ⟨S65536x512, .f32⟩
  | .hbm, ⟨76, _⟩ => ⟨S_, .f32⟩
  | .hbm, ⟨77, _⟩ => ⟨S65536, .f32⟩
  | .hbm, ⟨78, _⟩ => ⟨S65536x1, .f32⟩
  | .hbm, ⟨79, _⟩ => ⟨S65536x1, .f32⟩
  | .hbm, ⟨80, _⟩ => ⟨S65536x512, .f32⟩
  | .hbm, ⟨81, _⟩ => ⟨S65536x512, .f32⟩
  | .hbm, ⟨82, _⟩ => ⟨S65536x1, .f32⟩
  | .hbm, ⟨83, _⟩ => ⟨S65536, .f32⟩
  | .hbm, ⟨84, _⟩ => ⟨S65536, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v10 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v11 : Ref sig .tc := ⟨.hbm, 47, rfl⟩
abbrev main_v12 : Ref sig .tc := ⟨.hbm, 48, rfl⟩
abbrev main_cst_2 : Ref sig .tc := ⟨.hbm, 49, rfl⟩
abbrev main_v13 : Ref sig .tc := ⟨.hbm, 50, rfl⟩
abbrev main_v14 : Ref sig .tc := ⟨.hbm, 51, rfl⟩
abbrev main_cst_3 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_cst_4 : Ref sig .tc := ⟨.hbm, 56, rfl⟩
abbrev main_v18 : Ref sig .tc := ⟨.hbm, 57, rfl⟩
abbrev main_v19 : Ref sig .tc := ⟨.hbm, 58, rfl⟩
abbrev main_cst_5 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_6 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call2_cst : Ref sig .tc := ⟨.hbm, 67, rfl⟩
abbrev main_call2_v0 : Ref sig .tc := ⟨.hbm, 68, rfl⟩
abbrev main_call2_cst_0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_cst_1 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_cst_7 : Ref sig .tc := ⟨.hbm, 85, rfl⟩
abbrev main_v30 : Ref sig .tc := ⟨.hbm, 86, rfl⟩
abbrev main_cst_8 : Ref sig .tc := ⟨.hbm, 87, rfl⟩
abbrev main_v31 : Ref sig .tc := ⟨.hbm, 88, rfl⟩
abbrev main_v32 : Ref sig .tc := ⟨.hbm, 89, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S65536 : S_.BroadcastsInDim S65536 (![] : Fin 0 → Fin S65536.rank)
  reducesTo_S65536x512_S65536_d1 : S65536x512.ReducesTo [1] S65536
  h_S_ : 0 < S_.numel
  slices_S65536x512_S65536x1_0_0 : S65536x512.Slices ![0, 0] S65536x1
  shapeCasts_S65536x1_S65536 : S65536x1.ShapeCasts S65536
  bcast_S_S65536x512 : S_.BroadcastsInDim S65536x512 (![] : Fin 0 → Fin S65536x512.rank)
  reducesTo_S65536_S_d0 : S65536.ReducesTo [0] S_
  bcast_S65536_S65536x1_0 : S65536.BroadcastsInDim S65536x1 (![0] : Fin 1 → Fin S65536x1.rank)
  bcast_S65536x1_S65536x512_0_1 : S65536x1.BroadcastsInDim S65536x512 (![0, 1] : Fin 2 → Fin S65536x512.rank)
  scatter_S65536x512_S1_S65536_0_1_1_0_wf : ScatterDims.WF S65536x512 S1 S65536 [0] [1] [1] 0

variable [Facts₀]

def scatter_S65536x512_S1_S65536_0_1_1_0 : ScatterDims S65536x512 S1 S65536 where
  updateWindowDims := [0]
  insertedWindowDims := [1]
  scatterDimsToOperandDims := [1]
  indexVectorDim := 0
  wf := scatter_S65536x512_S1_S65536_0_1_1_0_wf

class Facts : Prop extends Facts₀ where

variable [Facts]
-- ==== Proof.Spec.lean ====
/-
  The loss both programs compute, as one function of the two argument arrays.

  For a row of logits `x` and a row of labels `y` (512 entries each; column 0 is the threshold class):
  the labels with column 0 cleared, `clip y`; their sum `posCount y`; the row's indicator `rowMask y` (1 when the
  sum is positive, else 0); `term x y = logσ(-x₀) + Σ_c clip y c · logσ(x_c)` with `logσ z = -softplus(-z)` and
  `softplus u = max u 0 + log(1 + e^{-|u|})`; the masked logits `x_c - clip y c · 10³⁰`, their maximum, the sum of
  their shifted exponentials, and the row's softmax loss at column 0 in the two arrangements the programs use:
  `(max + log Σ) - x₀` and `-((masked₀ - max) - log Σ)`.  The loss is
  `-(S1 / S2) + S3 / 65536` against `(-S1) / S2 + S3' / 65536` with `S1 = Σ_r rowMask · term`,
  `S2 = Σ_r rowMask · (1 + posCount)`, `S3 = Σ_r` of the row losses.

  The two arrangements agree when the entries are real numbers (the row loss: only `x₀` and the row maximum have to
  be real) and some row has a positive label sum (then `S2 > 0`, and a sign moves through the quotient).
-/
import Idealize.ShloMosaic.PureOps.Ideal
import Idealize.ShloMosaic.Lib.ValueIdx

noncomputable section

open scoped BigOperators

namespace Cert.MatLoss

open Idealize.ShloMosaic Idealize.ShloMosaic.ValueIdx

/-- One row of an argument array. -/
abbrev Row := Fin 512 → EReal

/-- `max u 0 + log(1 + e^{-|u|})`, with `|u|` spelt `max u (-u)`. -/
def softplus (u : EReal) : EReal := max u 0 + Ideal.log1p (Ideal.exp (-(max u (-u))))

/-- `log σ(z) = -softplus(-z)`. -/
def logSigmoid (z : EReal) : EReal := -(softplus (-z))

/-- The labels with the threshold column cleared. -/
def clip (y : Row) : Row := fun c => if c.val = 0 then 0 else y c

/-- The number (sum) of positive labels of a row. -/
def posCount (y : Row) : EReal := ∑ c, clip y c

/-- 1 for a row with a positive label sum, else 0. -/
def rowMask (y : Row) : EReal := if 0 < posCount y then 1 else 0

def term (x y : Row) : EReal := logSigmoid (-(x 0)) + ∑ c, clip y c * logSigmoid (x c)

/-- A row's share of the first loss's numerator. -/
def a1 (x y : Row) : EReal := rowMask y * term x y

/-- A row's share of the first loss's denominator. -/
def a2 (y : Row) : EReal := rowMask y * (1 + posCount y)

/-- The finite stand-in that pushes the positive labels' logits down: the f32 word of 10³⁰. -/
def big : EReal := Ideal.ofBits .f32 0x7149F2CA#32

def masked (x y : Row) : Row := fun c => x c - clip y c * big

def rowMax (x y : Row) : EReal := Finset.univ.fold max ⊥ (masked x y)

def sumExp (x y : Row) : EReal := ∑ c, Ideal.exp (masked x y c - rowMax x y)

/-- The row's softmax loss at column 0 as the kernel arranges it. -/
def a3 (x y : Row) : EReal := (rowMax x y + Ideal.log (sumExp x y)) - x 0

/-- The same as the reference arranges it. -/
def a3r (x y : Row) : EReal := -((masked x y 0 - rowMax x y) - Ideal.log (sumExp x y))

abbrev Arr := (⟨2, ![65536, 512]⟩ : Shape).Idx → EReal

/-- Row `r` of an argument array. -/
def rowOf (X : Arr) (r : Fin 65536) : Row := fun c => X (ix2 r c)

def S1 (X Y : Arr) : EReal := ∑ r : Fin 65536, a1 (rowOf X r) (rowOf Y r)
def S2 (Y : Arr) : EReal := ∑ r : Fin 65536, a2 (rowOf Y r)
def S3 (X Y : Arr) : EReal := ∑ r : Fin 65536, a3 (rowOf X r) (rowOf Y r)
def S3r (X Y : Arr) : EReal := ∑ r : Fin 65536, a3r (rowOf X r) (rowOf Y r)

/-- The number of rows, as the f32 word both programs divide by. -/
def nRows : EReal := Ideal.ofBits .f32 0x47800000#32

/-- The kernel's arrangement of the loss. -/
def kerLoss (X Y : Arr) : EReal := -(Ideal.div (S1 X Y) (S2 Y)) + Ideal.div (S3 X Y) nRows

/-- The reference's arrangement of the loss. -/
def refLoss (X Y : Arr) : EReal := Ideal.div (-(S1 X Y)) (S2 Y) + Ideal.div (S3r X Y) nRows

/-! ## The two arrangements agree -/

theorem clip_zero (y : Row) : clip y 0 = 0 := by simp [clip]

/-- A maximum folded from `⊥` over a finite set is `⊥` or one of the values. -/
theorem fold_max_mem {ι : Type*} [DecidableEq ι] (s : Finset ι) (f : ι → EReal) :
    s.fold max ⊥ f = ⊥ ∨ ∃ c ∈ s, s.fold max ⊥ f = f c := by
  induction s using Finset.induction_on with
  | empty => left; simp
  | insert a s ha ih =>
    rw [Finset.fold_insert ha]
    rcases max_cases (f a) (s.fold max ⊥ f) with ⟨h, _⟩ | ⟨h, _⟩
    · right; exact ⟨a, Finset.mem_insert_self a s, h⟩
    · rcases ih with h0 | ⟨c, hc, h1⟩
      · left; rw [h, h0]
      · right; exact ⟨c, Finset.mem_insert_of_mem hc, by rw [h, h1]⟩

/-- The maximum of a row of real numbers is a real number. -/
theorem rowMax_real (x y : Row) (h : ∀ c, ∃ r : ℝ, masked x y c = (r : EReal)) : ∃ r : ℝ, rowMax x y = (r : EReal) := by
  unfold rowMax
  rcases fold_max_mem Finset.univ (masked x y) with h0 | ⟨c, _, h1⟩
  · exfalso
    obtain ⟨r, hr⟩ := h 0
    have hle : masked x y 0 ≤ Finset.univ.fold max ⊥ (masked x y) :=
      (Finset.le_fold_max (masked x y 0)).2 (Or.inr ⟨0, Finset.mem_univ _, le_refl _⟩)
    rw [h0, hr] at hle
    exact absurd hle (by simp)
  · obtain ⟨r, hr⟩ := h c
    exact ⟨r, by rw [h1, hr]⟩

/-- With `a` and `m` real, `-((a - m) - L) = (m + L) - a` for every extended real `L`. -/
theorem rearrange (a m : ℝ) (L : EReal) : -(((a : EReal) - (m : EReal)) - L) = ((m : EReal) + L) - (a : EReal) := by
  induction L using EReal.rec with
  | bot => simp [← EReal.coe_sub]
  | top => simp [← EReal.coe_sub]
  | coe l =>
    rw [← EReal.coe_sub, ← EReal.coe_sub, ← EReal.coe_neg, ← EReal.coe_add, ← EReal.coe_sub]
    congr 1; ring

/-- The reference's row loss is the kernel's on a row of real numbers. -/
theorem a3r_eq_a3 (x y : Row) (hx : ∀ c, ∃ r : ℝ, x c = (r : EReal)) (hy : ∀ c, ∃ r : ℝ, y c = (r : EReal)) :
    a3r x y = a3 x y := by
  have hm0 : masked x y 0 = x 0 := by
    unfold masked; rw [clip_zero, zero_mul, sub_zero]
  have hbig : ∃ b : ℝ, big = (b : EReal) := by
    unfold big
    exact ⟨_, rfl⟩
  have hreal : ∀ c, ∃ r : ℝ, masked x y c = (r : EReal) := by
    intro c
    obtain ⟨a, ha⟩ := hx c
    obtain ⟨b, hb⟩ := hbig
    unfold masked clip
    by_cases hc : c.val = 0
    · rw [if_pos hc, zero_mul, sub_zero]; exact ⟨a, ha⟩
    · obtain ⟨l, hl⟩ := hy c
      rw [if_neg hc, ha, hl, hb, ← EReal.coe_mul, ← EReal.coe_sub]; exact ⟨_, rfl⟩
  obtain ⟨mx, hmx⟩ := rowMax_real x y hreal
  obtain ⟨a, ha⟩ := hx 0
  unfold a3r a3
  rw [hm0, hmx, ha]
  exact rearrange a mx _

/-! ## The denominator is positive when some row has a positive label sum -/

theorem a2_nonneg (y : Row) : 0 ≤ a2 y := by
  unfold a2 rowMask
  split_ifs with h
  · rw [one_mul]
    have h1 : posCount y ≤ 1 + posCount y := by
      have := add_le_add_left (zero_le_one (α := EReal)) (posCount y)
      rwa [zero_add] at this
    exact le_trans (le_of_lt h) h1
  · rw [zero_mul]

theorem a2_pos (y : Row) (h : 0 < posCount y) : 0 < a2 y := by
  unfold a2 rowMask
  rw [if_pos h, one_mul]
  have h1 : posCount y ≤ 1 + posCount y := by
    have := add_le_add_left (zero_le_one (α := EReal)) (posCount y)
    rwa [zero_add] at this
  exact lt_of_lt_of_le h h1

theorem S2_ne_zero (Y : Arr) (h : ∃ p : Fin 65536, 0 < posCount (rowOf Y p)) : S2 Y ≠ 0 := by
  obtain ⟨p, hp⟩ := h
  have hle : a2 (rowOf Y p) ≤ S2 Y :=
    Finset.single_le_sum (f := fun r => a2 (rowOf Y r)) (fun r _ => a2_nonneg _) (Finset.mem_univ p)
  exact ne_of_gt (lt_of_lt_of_le (a2_pos _ hp) hle)

/-- A sign moves through a quotient whose divisor is not zero. -/
theorem neg_div_of_ne (a b : EReal) (hb : b ≠ 0) : -(Ideal.div a b) = Ideal.div (-a) b := by
  unfold Ideal.div
  rw [if_neg hb, if_neg hb, EReal.neg_mul]

theorem S3r_eq_S3 (X Y : Arr) (hX : ∀ i, ∃ r : ℝ, X i = (r : EReal)) (hY : ∀ i, ∃ r : ℝ, Y i = (r : EReal)) :
    S3r X Y = S3 X Y :=
  Finset.sum_congr rfl fun r _ => a3r_eq_a3 _ _ (fun c => hX (ix2 r c)) (fun c => hY (ix2 r c))

/-- On arrays of real numbers with a row of positive label sum the two arrangements of the loss are equal. -/
theorem loss_eq (X Y : Arr) (hX : ∀ i, ∃ r : ℝ, X i = (r : EReal)) (hY : ∀ i, ∃ r : ℝ, Y i = (r : EReal))
    (hpos : ∃ p : Fin 65536, 0 < posCount (rowOf Y p)) : kerLoss X Y = refLoss X Y := by
  unfold kerLoss refLoss
  rw [neg_div_of_ne _ _ (S2_ne_zero Y hpos), S3r_eq_S3 X Y hX hY]

end Cert.MatLoss

end
-- ==== Proof.KPieces.lean ====
/-
  What each control case of the kernel body leaves in the three accumulators it carries from one grid point to the next,
  and in the three output blocks at a run's last point, as the body's own arithmetic of the point's two input blocks:
  `addS j x0 x1 a` is accumulator `j` after a point that found it at `a` (the block's share added); a run's first point
  starts from the stored zeros, its last point copies the accumulators out.
-/
import proofs.«142532_j41180146434453_2_alg».proof.Proof.Gen.KernelIdeal.Frame
import Idealize.ShloMosaic.Lib.Pipeline.Value

set_option maxRecDepth 16384

noncomputable section

namespace Cert.KernelIdeal.KPieces

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := by funext a; fin_cases a <;> rfl
theorem hz3 : (![0, 0, 0] : Fin 3 → Nat) = fun _ => 0 := by funext a; fin_cases a <;> rfl

/-- The first accumulator after a point with blocks `x0` (logits), `x1` (labels) that found it at `a`. -/
def addS0 (x0 x1 : Vec F S2048x512 .f32) (a : Vec F S1x1 .f32) : Vec F S1x1 .f32 := k0_pay14 (k0_pay10 x1) (k0_pay11 x0 x1) (k0_pay13 x0) (FloatOps.ofBits .f32 0#32) a
/-- The second accumulator likewise. -/
def addS1 (x0 x1 : Vec F S2048x512 .f32) (a : Vec F S1x1 .f32) : Vec F S1x1 .f32 := k0_pay15 (k0_pay9 x1) (k0_pay10 x1) a
/-- The third accumulator likewise. -/
def addS2 (x0 x1 : Vec F S2048x512 .f32) (a : Vec F S1x1 .f32) : Vec F S1x1 .f32 := k0_pay1 (k0_pay12 x0) (k0_pay16 x0 (k0_pay8 x1)) (k0_pay17 x0 (k0_pay8 x1)) a

/-- A run's first point: accumulator 0 starts from the stored zero. -/
theorem sout0_A_0_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S2048x512 .f32) (x1 : Vec F S2048x512 .f32) :
    sout0_A_0 c i arg2 harg2 arg3 harg3 arg4 harg4 arg5 harg5 arg6 harg6 arg7 harg7 arg8 harg8 arg9 harg9 hc0 hc1 x0 x1 = addS0 x0 x1 (k0_pay5 (F := F)) := by
  unfold sout0_A_0 addS0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  refine (View.canon_cons_unit_zero (S := S1x1) hz2 _ _ _).trans ?_
  simp only [View.readAt_eq_ld, harg2.read_unread, harg3.read_unread, harg7.read_unread, harg8.read_unread, harg9.read_unread, View.ld_unit_zero (S := S2048x512) hz2, View.ld_unit_zero (S := S1x1) hz2]
  rw [View.readCov_unit_zero (S := S1x1) _ hz2]

/-- A middle point: accumulator 0 goes on from what the point before left. -/
theorem sout0_B_0_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S2048x512 .f32) (x1 : Vec F S2048x512 .f32) (xs0 : Vec F S1x1 .f32) (xs1 : Vec F S1x1 .f32) (xs2 : Vec F S1x1 .f32) :
    sout0_B_0 c i arg2 harg2 arg3 harg3 arg4 harg4 arg5 harg5 arg6 harg6 arg7 harg7 arg8 harg8 arg9 harg9 hc0 hc1 x0 x1 xs0 xs1 xs2 = addS0 x0 x1 xs0 := by
  unfold sout0_B_0 addS0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  refine (View.canon_unit_zero (S := S1x1) hz2 _ _).trans ?_
  simp only [View.readAt_eq_ld, harg2.read_unread, harg3.read_unread, harg7.read_unread, harg8.read_unread, harg9.read_unread, View.ld_unit_zero (S := S2048x512) hz2, View.ld_unit_zero (S := S1x1) hz2]

/-- A run's last point: accumulator 0 goes on the same way … -/
theorem sout0_C_0_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x512 .f32) (xs0 : Vec F S1x1 .f32) (xs1 : Vec F S1x1 .f32) (xs2 : Vec F S1x1 .f32) :
    sout0_C_0 c i arg2 harg2 arg3 harg3 arg4 harg4 arg5 harg5 arg6 harg6 arg7 harg7 arg8 harg8 arg9 harg9 hc0 hc1 x0 x1 xs0 xs1 xs2 = addS0 x0 x1 xs0 := by
  unfold sout0_C_0 addS0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  refine (View.canon_unit_zero (S := S1x1) hz2 _ _).trans ?_
  simp only [View.readAt_eq_ld, harg2.read_unread, harg3.read_unread, harg7.read_unread, harg8.read_unread, harg9.read_unread, View.ld_unit_zero (S := S2048x512) hz2, View.ld_unit_zero (S := S1x1) hz2]

/-- … and is copied into output block 2. -/
theorem out0_C_2_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x512 .f32) (xs0 : Vec F S1x1 .f32) (xs1 : Vec F S1x1 .f32) (xs2 : Vec F S1x1 .f32) :
    out0_C_2 c i arg2 harg2 arg3 harg3 arg4 harg4 arg5 harg5 arg6 harg6 arg7 harg7 arg8 harg8 arg9 harg9 hc0 hc1 x0 x1 xs0 xs1 xs2 = k0_pay2 (addS0 x0 x1 xs0) := by
  unfold out0_C_2 addS0
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  refine (View.canon_unit_zero (S := S1x1x1) hz3 _ _).trans ?_
  simp only [View.readAt_eq_ld, harg2.read_unread, harg3.read_unread, harg7.read_unread, harg8.read_unread, harg9.read_unread, View.ld_unit_zero (S := S2048x512) hz2, View.ld_unit_zero (S := S1x1) hz2]
  rw [View.readCov_unit_zero (S := S1x1) _ hz2]

/-- A run's first point: accumulator 1 starts from the stored zero. -/
theorem sout0_A_1_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S2048x512 .f32) (x1 : Vec F S2048x512 .f32) :
    sout0_A_1 c i arg2 harg2 arg3 harg3 arg4 harg4 arg5 harg5 arg6 harg6 arg7 harg7 arg8 harg8 arg9 harg9 hc0 hc1 x0 x1 = addS1 x0 x1 (k0_pay6 (F := F)) := by
  unfold sout0_A_1 addS1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  refine (View.canon_cons_unit_zero (S := S1x1) hz2 _ _ _).trans ?_
  simp only [View.readAt_eq_ld, harg2.read_unread, harg3.read_unread, harg7.read_unread, harg8.read_unread, harg9.read_unread, View.ld_unit_zero (S := S2048x512) hz2, View.ld_unit_zero (S := S1x1) hz2]
  rw [View.readCov_unit_zero (S := S1x1) _ hz2]

/-- A middle point: accumulator 1 goes on from what the point before left. -/
theorem sout0_B_1_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S2048x512 .f32) (x1 : Vec F S2048x512 .f32) (xs0 : Vec F S1x1 .f32) (xs1 : Vec F S1x1 .f32) (xs2 : Vec F S1x1 .f32) :
    sout0_B_1 c i arg2 harg2 arg3 harg3 arg4 harg4 arg5 harg5 arg6 harg6 arg7 harg7 arg8 harg8 arg9 harg9 hc0 hc1 x0 x1 xs0 xs1 xs2 = addS1 x0 x1 xs1 := by
  unfold sout0_B_1 addS1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  refine (View.canon_unit_zero (S := S1x1) hz2 _ _).trans ?_
  simp only [View.readAt_eq_ld, harg2.read_unread, harg3.read_unread, harg7.read_unread, harg8.read_unread, harg9.read_unread, View.ld_unit_zero (S := S2048x512) hz2, View.ld_unit_zero (S := S1x1) hz2]

/-- A run's last point: accumulator 1 goes on the same way … -/
theorem sout0_C_1_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x512 .f32) (xs0 : Vec F S1x1 .f32) (xs1 : Vec F S1x1 .f32) (xs2 : Vec F S1x1 .f32) :
    sout0_C_1 c i arg2 harg2 arg3 harg3 arg4 harg4 arg5 harg5 arg6 harg6 arg7 harg7 arg8 harg8 arg9 harg9 hc0 hc1 x0 x1 xs0 xs1 xs2 = addS1 x0 x1 xs1 := by
  unfold sout0_C_1 addS1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  refine (View.canon_unit_zero (S := S1x1) hz2 _ _).trans ?_
  simp only [View.readAt_eq_ld, harg2.read_unread, harg3.read_unread, harg7.read_unread, harg8.read_unread, harg9.read_unread, View.ld_unit_zero (S := S2048x512) hz2, View.ld_unit_zero (S := S1x1) hz2]

/-- … and is copied into output block 3. -/
theorem out0_C_3_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x512 .f32) (xs0 : Vec F S1x1 .f32) (xs1 : Vec F S1x1 .f32) (xs2 : Vec F S1x1 .f32) :
    out0_C_3 c i arg2 harg2 arg3 harg3 arg4 harg4 arg5 harg5 arg6 harg6 arg7 harg7 arg8 harg8 arg9 harg9 hc0 hc1 x0 x1 xs0 xs1 xs2 = k0_pay3 (addS1 x0 x1 xs1) := by
  unfold out0_C_3 addS1
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  refine (View.canon_unit_zero (S := S1x1x1) hz3 _ _).trans ?_
  simp only [View.readAt_eq_ld, harg2.read_unread, harg3.read_unread, harg7.read_unread, harg8.read_unread, harg9.read_unread, View.ld_unit_zero (S := S2048x512) hz2, View.ld_unit_zero (S := S1x1) hz2]
  rw [View.readCov_unit_zero (S := S1x1) _ hz2]

/-- A run's first point: accumulator 2 starts from the stored zero. -/
theorem sout0_A_2_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : cond0_0 i) (hc1 : ¬cond0_1 i) (x0 : Vec F S2048x512 .f32) (x1 : Vec F S2048x512 .f32) :
    sout0_A_2 c i arg2 harg2 arg3 harg3 arg4 harg4 arg5 harg5 arg6 harg6 arg7 harg7 arg8 harg8 arg9 harg9 hc0 hc1 x0 x1 = addS2 x0 x1 (k0_pay7 (F := F)) := by
  unfold sout0_A_2 addS2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  refine (View.canon_cons_unit_zero (S := S1x1) hz2 _ _ _).trans ?_
  simp only [View.readAt_eq_ld, harg2.read_unread, harg3.read_unread, harg7.read_unread, harg8.read_unread, harg9.read_unread, View.ld_unit_zero (S := S2048x512) hz2, View.ld_unit_zero (S := S1x1) hz2]
  rw [View.readCov_unit_zero (S := S1x1) _ hz2]

/-- A middle point: accumulator 2 goes on from what the point before left. -/
theorem sout0_B_2_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : ¬cond0_1 i) (x0 : Vec F S2048x512 .f32) (x1 : Vec F S2048x512 .f32) (xs0 : Vec F S1x1 .f32) (xs1 : Vec F S1x1 .f32) (xs2 : Vec F S1x1 .f32) :
    sout0_B_2 c i arg2 harg2 arg3 harg3 arg4 harg4 arg5 harg5 arg6 harg6 arg7 harg7 arg8 harg8 arg9 harg9 hc0 hc1 x0 x1 xs0 xs1 xs2 = addS2 x0 x1 xs2 := by
  unfold sout0_B_2 addS2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  refine (View.canon_unit_zero (S := S1x1) hz2 _ _).trans ?_
  simp only [View.readAt_eq_ld, harg2.read_unread, harg3.read_unread, harg7.read_unread, harg8.read_unread, harg9.read_unread, View.ld_unit_zero (S := S2048x512) hz2, View.ld_unit_zero (S := S1x1) hz2]

/-- A run's last point: accumulator 2 goes on the same way … -/
theorem sout0_C_2_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x512 .f32) (xs0 : Vec F S1x1 .f32) (xs1 : Vec F S1x1 .f32) (xs2 : Vec F S1x1 .f32) :
    sout0_C_2 c i arg2 harg2 arg3 harg3 arg4 harg4 arg5 harg5 arg6 harg6 arg7 harg7 arg8 harg8 arg9 harg9 hc0 hc1 x0 x1 xs0 xs1 xs2 = addS2 x0 x1 xs2 := by
  unfold sout0_C_2 addS2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  refine (View.canon_unit_zero (S := S1x1) hz2 _ _).trans ?_
  simp only [View.readAt_eq_ld, harg2.read_unread, harg3.read_unread, harg7.read_unread, harg8.read_unread, harg9.read_unread, View.ld_unit_zero (S := S2048x512) hz2, View.ld_unit_zero (S := S1x1) hz2]

/-- … and is copied into output block 4. -/
theorem out0_C_4_eq (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S1x1x1 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (hc0 : ¬cond0_0 i) (hc1 : cond0_1 i) (x0 : Vec F S2048x512 .f32) (x1 : Vec F S2048x512 .f32) (xs0 : Vec F S1x1 .f32) (xs1 : Vec F S1x1 .f32) (xs2 : Vec F S1x1 .f32) :
    out0_C_4 c i arg2 harg2 arg3 harg3 arg4 harg4 arg5 harg5 arg6 harg6 arg7 harg7 arg8 harg8 arg9 harg9 hc0 hc1 x0 x1 xs0 xs1 xs2 = k0_pay4 (addS2 x0 x1 xs2) := by
  unfold out0_C_4 addS2
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  refine (View.canon_unit_zero (S := S1x1x1) hz3 _ _).trans ?_
  simp only [View.readAt_eq_ld, harg2.read_unread, harg3.read_unread, harg7.read_unread, harg8.read_unread, harg9.read_unread, View.ld_unit_zero (S := S2048x512) hz2, View.ld_unit_zero (S := S1x1) hz2]
  rw [View.readCov_unit_zero (S := S1x1) _ hz2]

end Cert.KernelIdeal.KPieces

end
-- ==== Proof.KFold.lean ====
/-
  The three accumulators across the grid. The grid's 32 points fall into two runs of 16 (one per value of the outer
  coordinate); a run's first point stores zeros and adds its block's shares, every later point adds its block's shares to
  what the point before left, and the run's last point also copies the three accumulators into the run's output blocks.
  So after point `n` each accumulator is the fold, from the run's first point up to `n`, of "add this point's share".
-/
import proofs.«142532_j41180146434453_2_alg».proof.Proof.KPieces

set_option maxRecDepth 16384

noncomputable section

namespace Cert.KernelIdeal.KFold

open Cert.KernelIdeal Cert.KernelIdeal.Gen Cert.KernelIdeal.KPieces
open Idealize.ShloMosaic Idealize.ShloMosaic.TcCoe
open Idealize.SL Idealize.SL.Sem

variable {F : FTy → Type} [FloatOps F]
variable (m : (ℓ : Loc nD τ sig) → Buf (Elt F) ℓ)

/-- At a run's first point each accumulator is its block's share added to the stored zero. -/
theorem scr_first (c : Dev nD) (t : Fin cfg0.N) (h0 : t.val % 16 = 0) :
    (outsAt0 m c t.val t.isLt).2.2.2.1 = addS0 (iblk m c 0 t) (iblk m c 1 t) (k0_pay5 (F := F))
    ∧ (outsAt0 m c t.val t.isLt).2.2.2.2.1 = addS1 (iblk m c 0 t) (iblk m c 1 t) (k0_pay6 (F := F))
    ∧ (outsAt0 m c t.val t.isLt).2.2.2.2.2 = addS2 (iblk m c 0 t) (iblk m c 1 t) (k0_pay7 (F := F)) := by
  have h1 : ¬t.val % 16 = 15 := by omega
  rw [outsAt0_A m c t h0 h1]
  exact ⟨sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t),
    sout0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)⟩

/-- At every other point each accumulator is its block's share added to what the point before left. -/
theorem scr_next (c : Dev nD) (t : Fin cfg0.N) (h0 : ¬t.val % 16 = 0) :
    (outsAt0 m c t.val t.isLt).2.2.2.1 = addS0 (iblk m c 0 t) (iblk m c 1 t) (outsAt0 m c (t.val - 1) (Nat.lt_of_le_of_lt (Nat.sub_le _ _) t.isLt)).2.2.2.1
    ∧ (outsAt0 m c t.val t.isLt).2.2.2.2.1 = addS1 (iblk m c 0 t) (iblk m c 1 t) (outsAt0 m c (t.val - 1) (Nat.lt_of_le_of_lt (Nat.sub_le _ _) t.isLt)).2.2.2.2.1
    ∧ (outsAt0 m c t.val t.isLt).2.2.2.2.2 = addS2 (iblk m c 0 t) (iblk m c 1 t) (outsAt0 m c (t.val - 1) (Nat.lt_of_le_of_lt (Nat.sub_le _ _) t.isLt)).2.2.2.2.2 := by
  by_cases h1 : t.val % 16 = 15
  · rw [outsAt0_C m c t h0 h1]
    exact ⟨sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      sout0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩
  · rw [outsAt0_B m c t h0 h1]
    exact ⟨sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2,
      sout0_B_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2⟩

/-- At a run's last point the three output blocks are copies of the three accumulators as that point leaves them. -/
theorem out_last (c : Dev nD) (t : Fin cfg0.N) (h1 : t.val % 16 = 15) :
    (outsAt0 m c t.val t.isLt).1 = k0_pay2 ((outsAt0 m c t.val t.isLt).2.2.2.1)
    ∧ (outsAt0 m c t.val t.isLt).2.1 = k0_pay3 ((outsAt0 m c t.val t.isLt).2.2.2.2.1)
    ∧ (outsAt0 m c t.val t.isLt).2.2.1 = k0_pay4 ((outsAt0 m c t.val t.isLt).2.2.2.2.2) := by
  have h0 : ¬t.val % 16 = 0 := by omega
  rw [outsAt0_C m c t h0 h1]
  exact ⟨(out0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (congrArg k0_pay2 (sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm),
    (out0_C_3_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (congrArg k0_pay3 (sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm),
    (out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (congrArg k0_pay4 (sout0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)⟩

end Cert.KernelIdeal.KFold

end
-- ==== Proof.LibKeepdimsColumn.lean ====
/-
  A vector of extent `a` seen as a column `[a, 1]`: what `keepdims=True` leaves of a sum over the last axis, and what a
  reshape of a flat array to a column is. Row-major, the element at `(i, u)` of the column is the element at `i` of the
  vector, since `i · 1 + u = i` for the one value `u = 0`. And the sums over the index sets of a flat array and of a
  column, each as the sum over the one coordinate that varies.
-/
import Idealize.ShloMosaic.Lib.ValueLayout

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of a column `[n, 1]` is the sum over its rows, each read at the one column `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.LibKeepdims

end
-- ==== Proof.LibRowReduceColumn.lean ====
/-
  A reduction along the rows of an [a, b] array, kept as a column [a, 1] (what `keepdims=True` leaves), read at an
  index at the ideal instance: the row's sum is the sum over the row's `b` entries, and the row's maximum taken from
  −∞ (and once more against −∞, as a softmax spells it) is the fold of `max` over them. Any sizes.
-/
import Idealize.ShloMosaic.PureOps.Ideal.Laws
import Idealize.ShloMosaic.Lib.ValueLayout
import proofs.«142532_j41180146434453_2_alg».proof.Proof.LibKeepdimsColumn

noncomputable section

open scoped BigOperators

namespace Cert.Lib.RowReduceColumn

open Idealize.ShloMosaic Idealize.ShloMosaic.ValueIdx

/-- The reduced index `p` of an [a, b] array reduced along its rows, with column `d` put back, is (p, d). -/
theorem lift_row {a b : ℕ} (h : (⟨2, ![a, b]⟩ : Shape).Reduces [1] (⟨1, ![a]⟩ : Shape)) (p : Fin a)
    (d : Fin ((⟨2, ![a, b]⟩ : Shape).size 1)) : h.lift (ix1 p) d = ix2 p (⟨d.val, d.isLt⟩ : Fin b) := by
  funext c; apply Fin.ext
  fin_cases c <;> rfl

/-- A row sum kept as a column, read at (p, u): the sum of row `p`'s entries. -/
theorem rowSum_column_apply {a b : ℕ} (v : FVec Ideal ⟨2, ![a, b]⟩ .f32)
    (h : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v 0x00000000#32 h hφ hacc) hc (ix2 p u)
      = ∑ d : Fin b, v (ix2 p d) :=
  (Cert.LibKeepdims.shapeCast_a_a1_apply _ hc p u).trans
    ((Ideal.multiReduction_add_single v _ h hφ hacc (ix1 p)).trans
      (Finset.sum_congr rfl fun d _ => congrArg v (lift_row h p d)))

/-- A row maximum from −∞, taken once more against −∞ and kept as a column, read at (p, u): the fold of `max` over
    row `p`'s entries. -/
theorem rowMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (maximumf (broadcast ⟨1, ![a]⟩ (Scalar.ofBits (F := Ideal) .f32 0xFF800000#32))
        (multiReduction .maximumf [1] ⟨1, ![a]⟩ v 0xFF800000#32 h hφ hacc)) hc (ix2 p u)
      = max (Ideal.ofBits .f32 0xFF800000#32)
          ((Finset.univ : Finset (Fin b)).fold max (Ideal.ofBits .f32 0xFF800000#32) (fun k => v (ix2 p k))) :=
  (Cert.LibKeepdims.shapeCast_a_a1_apply _ hc p u).trans
    (congrArg (max (Ideal.ofBits .f32 0xFF800000#32))
      ((Ideal.multiReduction_maximumf_single v _ h hφ hacc (ix1 p)).trans
        (congrArg (fun f => (Finset.univ : Finset (Fin b)).fold max (Ideal.ofBits .f32 0xFF800000#32) f)
          (funext fun k => congrArg v (lift_row h p k)))))

end Cert.Lib.RowReduceColumn

end
-- ==== Proof.LibLaneMaxColumn.lean ====
/-
  A maximum along the rows of an [a, b] array, taken from −∞ and kept as a column [a, 1] (what `keepdims=True` leaves of
  `jnp.max(…, axis=-1)`), read at an index at the ideal instance: the fold of `max` from −∞ over the row's `b` entries.
  Any sizes. (The companion of the row sum kept as a column; a softmax's form, with one more maximum against −∞ in
  front, is a different term.)
-/
import Idealize.ShloMosaic.PureOps.Ideal.Laws
import Idealize.ShloMosaic.Lib.ValueLayout
import proofs.«142532_j41180146434453_2_alg».proof.Proof.LibKeepdimsColumn
import proofs.«142532_j41180146434453_2_alg».proof.Proof.LibRowReduceColumn

noncomputable section

namespace Cert.Lib.LaneMaxColumn

open Idealize.ShloMosaic Idealize.ShloMosaic.ValueIdx

/-- A row maximum from −∞ kept as a column, read at (p, u): the fold of `max` from −∞ over row `p`'s entries. -/
theorem laneMax_column_apply {a b : ℕ} (v : FVec Ideal ⟨2, ![a, b]⟩ .f32)
    (h : (⟨2, ![a, b]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (p : Fin a) (u : Fin 1) :
    shapeCast ⟨2, ![a, 1]⟩ (multiReduction .maximumf [1] ⟨1, ![a]⟩ v 0xFF800000#32 h hφ hacc) hc (ix2 p u)
      = (Finset.univ : Finset (Fin b)).fold max (Ideal.ofBits .f32 0xFF800000#32) (fun k => v (ix2 p k)) :=
  (Cert.LibKeepdims.shapeCast_a_a1_apply _ hc p u).trans
    ((Ideal.multiReduction_maximumf_single v _ h hφ hacc (ix1 p)).trans
      (congrArg (fun f => (Finset.univ : Finset (Fin b)).fold max (Ideal.ofBits .f32 0xFF800000#32) f)
        (funext fun k => congrArg v (Cert.Lib.RowReduceColumn.lift_row h p k))))

end Cert.Lib.LaneMaxColumn

end
-- ==== Proof.KPayLib.lean ====
/-
  The small facts the block's arithmetic is read with, at the ideal instance.

  * A row of a 2048×512 block as a function of its column.
  * Words: the zero, one and −∞ words as extended reals; a 0/1 comparison bit widened and converted is 1 or 0;
    a select on "the column number is 0" is the `if`.
  * The program's spelling of log σ: with u the argument of the softplus, the chain
    0 − select(u−0 ≠ u−0, u+0, max(u,0) + log1p(exp(0 − |u−0|))) is −softplus(u), because a number never differs
    from itself, 0 − a = −a, a − 0 = a.
  * Layout: a column [a,1] summed over its rows into [1] and kept as [1,1]; a column broadcast along the rows.
-/
import proofs.«142532_j41180146434453_2_alg».proof.Proof.Gen.KernelIdeal.Skeleton
import proofs.«142532_j41180146434453_2_alg».proof.Proof.Spec
import proofs.«142532_j41180146434453_2_alg».proof.Proof.LibKeepdimsColumn
import proofs.«142532_j41180146434453_2_alg».proof.Proof.LibRowReduceColumn
import proofs.«142532_j41180146434453_2_alg».proof.Proof.LibLaneMaxColumn
import Idealize.ShloMosaic.PureOps.Ideal.Laws
import Idealize.ShloMosaic.Lib.ValueLayout

noncomputable section

open scoped BigOperators

namespace Cert.KernelIdeal.KPay

open Cert.KernelIdeal Cert.KernelIdeal.Gen Idealize.ShloMosaic Idealize.ShloMosaic.ValueIdx Cert.MatLoss

/-- Row q of a 2048×512 block. -/
def blockRow (x : FVec Ideal S2048x512 .f32) (q : Fin 2048) : Row := fun c => x (ix2 q c)

/-! ## Words -/

/-- The zero word is 0. -/
theorem zero_word : (Scalar.ofBits (F := Ideal) .f32 0x00000000#32 : EReal) = 0 := Ideal.ofBits_zero_f32

/-- The word 0x3F800000 is 1. -/
theorem one_word : (Scalar.ofBits (F := Ideal) .f32 0x3F800000#32 : EReal) = 1 := by
  show Ideal.ofBits .f32 0x3F800000#32 = 1
  simp [Ideal.ofBits, Ideal.ieee, -EReal.coe_mul]; norm_num

/-- The word 0xFF800000 is −∞. -/
theorem neg_inf_word : Ideal.ofBits .f32 0xFF800000#32 = (⊥ : EReal) := by simp [Ideal.ofBits, Ideal.ieee]

/-- The bit of "0 < p", widened to 32 bits and converted, is 1 when 0 < p and 0 otherwise. -/
theorem gt_zero_bit (p : EReal) :
    (FloatOps.sitofp (F := Ideal) .f32 ((FloatOps.cmpf (F := Ideal) (φ := .f32) .ogt p 0).setWidth 32) : EReal)
      = if 0 < p then 1 else 0 := by
  show ((((Ideal.cmp .ogt p 0).setWidth 32).toInt : ℝ) : EReal) = _
  unfold Ideal.cmp
  by_cases h : (0 : EReal) < p
  · rw [if_pos h, decide_eq_true h]
    have e : (BitVec.setWidth 32 (BitVec.ofBool true)).toInt = 1 := by decide
    rw [e]; norm_num
  · rw [if_neg h, decide_eq_false h]
    have e : (BitVec.setWidth 32 (BitVec.ofBool false)).toInt = 0 := by decide
    rw [e]; norm_num

/-- A select on "column number c is 0", c below 2³², is the `if`. -/
theorem select_col0 {α : Type} (c : Nat) (hc : c < 4294967296) (A B : α) :
    Scalar.select (IntOp.cmpi .eq (BitVec.ofNat 32 c) 0#32) A B = if c = 0 then A else B := by
  by_cases h : c = 0
  · subst h; rfl
  · have hne : BitVec.ofNat 32 c ≠ 0#32 := fun e => h (by
      have h2 : (BitVec.ofNat 32 c).toNat = (0#32).toNat := congrArg BitVec.toNat e
      simp only [BitVec.toNat_ofNat] at h2
      omega)
    have hb : (BitVec.ofNat 32 c == 0#32) = false := beq_eq_false_iff_ne.mpr hne
    rw [if_neg h]
    show Scalar.select (BitVec.ofBool (BitVec.ofNat 32 c == 0#32)) A B = B
    rw [hb]; exact select_zero A B

/-! ## The program's spelling of −softplus and of log σ -/

/-- With `z` the zero word's value: the chain the program applies to a softplus argument `u` is −softplus(u). A number
    never differs from itself, so the select takes its last operand; `u − 0 = u`, `0 − a = −a`. -/
theorem neg_softplus_chain (z u : Ideal .f32) (hz : z = 0) :
    FloatOps.subf z (Scalar.select (FloatOps.cmpf .one (FloatOps.subf u z) (FloatOps.subf u z)) (FloatOps.addf u z)
        (FloatOps.addf (FloatOps.maximumf u z)
          (FloatOps.log1p (FloatOps.exp (FloatOps.subf z (FloatOps.absf (FloatOps.subf u z)))))))
      = -(softplus u) := by
  subst hz
  have hb : FloatOps.cmpf (F := Ideal) (φ := .f32) .one (FloatOps.subf u 0) (FloatOps.subf u 0) = 0#1 := by
    show Ideal.cmp .one (u - 0) (u - 0) = 0#1
    show BitVec.ofBool (decide (u - 0 ≠ u - 0)) = 0#1
    rw [decide_eq_false (fun h : u - 0 ≠ u - 0 => h rfl)]; rfl
  rw [hb, select_zero]
  show (0 : EReal) - (max u 0 + Ideal.log1p (Ideal.exp (0 - max (u - 0) (-(u - 0))))) = -(softplus u)
  rw [sub_zero, zero_sub, zero_sub]
  rfl

/-- The same chain applied to `0 − x` is log σ(x). -/
theorem logSigmoid_chain (z x : Ideal .f32) (hz : z = 0) :
    FloatOps.subf z (Scalar.select (FloatOps.cmpf .one (FloatOps.subf (FloatOps.subf z x) z) (FloatOps.subf (FloatOps.subf z x) z))
        (FloatOps.addf (FloatOps.subf z x) z)
        (FloatOps.addf (FloatOps.maximumf (FloatOps.subf z x) z)
          (FloatOps.log1p (FloatOps.exp (FloatOps.subf z (FloatOps.absf (FloatOps.subf (FloatOps.subf z x) z)))))))
      = logSigmoid x := by
  rw [neg_softplus_chain z _ hz]
  subst hz
  show -(softplus ((0 : EReal) - x)) = logSigmoid x
  rw [zero_sub]
  rfl

/-! ## Layout -/

/-- The reduced index of an [a, 1] column summed over its rows, with row `d` put back, is (d, u). -/
theorem lift_col {a : ℕ} (h : (⟨2, ![a, 1]⟩ : Shape).Reduces [0] (⟨1, ![1]⟩ : Shape)) (u : Fin 1)
    (d : Fin ((⟨2, ![a, 1]⟩ : Shape).size 0)) : h.lift (ix1 u) d = ix2 (⟨d.val, d.isLt⟩ : Fin a) u := by
  funext c; apply Fin.ext
  fin_cases c <;> rfl

/-- A column [a, 1] summed over its rows into [1] and kept as [1, 1], read at its one index: the sum of the column. -/
theorem colSum_apply {a : ℕ} (v : FVec Ideal ⟨2, ![a, 1]⟩ .f32)
    (h : (⟨2, ![a, 1]⟩ : Shape).Reduces [0] (⟨1, ![1]⟩ : Shape)) (hφ : FKind.Formats .f32)
    (hacc : (0x00000000#32 : BitVec 32) = FKind.add.neutral .f32 hφ)
    (hc : (⟨1, ![1]⟩ : Shape).ShapeCasts ⟨2, ![1, 1]⟩) (i u : Fin 1) :
    shapeCast ⟨2, ![1, 1]⟩ (multiReduction .add [0] ⟨1, ![1]⟩ v 0x00000000#32 h hφ hacc) hc (ix2 i u)
      = ∑ q : Fin a, v (ix2 q (0 : Fin 1)) :=
  (Cert.LibKeepdims.shapeCast_a_a1_apply _ hc i u).trans
    ((Ideal.multiReduction_add_single v _ h hφ hacc (ix1 i)).trans
      (Finset.sum_congr rfl fun d _ => congrArg v
        ((lift_col h i d).trans (congrArg (ix2 (⟨d.val, d.isLt⟩ : Fin a)) (Subsingleton.elim i 0)))))

/-- A column [a, 1] broadcast along the rows to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.KPay

end
-- ==== Proof.KPayRows.lean ====
/-
  The block's per-row quantities, read at an index at the ideal instance: the cleared labels, their row sum, the row's
  indicator, the row's weighted sum of log σ, the column-0 logit and its negation, the masked logits and their maximum.
-/
import proofs.«142532_j41180146434453_2_alg».proof.Proof.KPayLib

noncomputable section

open scoped BigOperators

namespace Cert.KernelIdeal.KPay

open Cert.KernelIdeal Cert.KernelIdeal.Gen Idealize.ShloMosaic Idealize.ShloMosaic.ValueIdx Cert.MatLoss

/-- The labels with column 0 cleared: the select on "the column's number is 0". -/
theorem pay8_at (x1 : FVec Ideal S2048x512 .f32) (q : Fin 2048) (c : Fin 512) :
    k0_pay8 (F := Ideal) x1 (ix2 q c) = clip (blockRow x1 q) c := by
  unfold k0_pay8
  show Scalar.select (IntOp.cmpi .eq (iota .tc S2048x512 32 [1] iota_S2048x512_d1_w32 (ix2 q c)) 0#32)
      (Scalar.ofBits (F := Ideal) .f32 0x00000000#32) (x1 (ix2 q c)) = _
  rw [iota_single_apply]
  show Scalar.select (IntOp.cmpi .eq (BitVec.ofNat 32 c.val) 0#32) _ _ = _
  rw [select_col0 c.val (by have := c.isLt; omega), zero_word]
  rfl

/-- The row's label sum, kept as a column. -/
theorem pay9_at (x1 : FVec Ideal S2048x512 .f32) (q : Fin 2048) (u : Fin 1) :
    k0_pay9 (F := Ideal) x1 (ix2 q u) = posCount (blockRow x1 q) := by
  unfold k0_pay9
  refine (Cert.Lib.RowReduceColumn.rowSum_column_apply (k0_pay8 (F := Ideal) x1) _ _ _ _ q u).trans ?_
  exact Finset.sum_congr rfl fun d _ => pay8_at x1 q d

/-- The row's indicator: the bit of "label sum > 0" widened and converted. -/
theorem pay10_at (x1 : FVec Ideal S2048x512 .f32) (q : Fin 2048) (u : Fin 1) :
    k0_pay10 (F := Ideal) x1 (ix2 q u) = rowMask (blockRow x1 q) := by
  unfold k0_pay10
  show FloatOps.sitofp (F := Ideal) .f32 ((FloatOps.cmpf (F := Ideal) (φ := .f32) .ogt (k0_pay9 (F := Ideal) x1 (ix2 q u))
      (Scalar.ofBits (F := Ideal) .f32 0x00000000#32)).setWidth 32) = _
  rw [pay9_at, zero_word, gt_zero_bit]
  rfl

/-- The column-0 logit of the row. -/
theorem pay12_at (x0 : FVec Ideal S2048x512 .f32) (q : Fin 2048) (u : Fin 1) :
    k0_pay12 (F := Ideal) x0 (ix2 q u) = blockRow x0 q 0 := by
  unfold k0_pay12
  exact slice2_axis1_apply 0 x0 _ q u (0 : Fin 512) (by show (0 : ℕ) = 0 + u.val; omega)

/-- Its negation, spelt 0 − x. -/
theorem pay13_at (x0 : FVec Ideal S2048x512 .f32) (q : Fin 2048) (u : Fin 1) :
    k0_pay13 (F := Ideal) x0 (ix2 q u) = -(blockRow x0 q 0) := by
  unfold k0_pay13
  show (Scalar.ofBits (F := Ideal) .f32 0x00000000#32 : EReal) - k0_pay12 (F := Ideal) x0 (ix2 q u) = _
  rw [pay12_at, zero_word, zero_sub]

/-- The masked logits. -/
theorem pay16_at (x0 x1 : FVec Ideal S2048x512 .f32) (q : Fin 2048) (c : Fin 512) :
    k0_pay16 (F := Ideal) x0 (k0_pay8 x1) (ix2 q c) = masked (blockRow x0 q) (blockRow x1 q) c := by
  unfold k0_pay16
  show x0 (ix2 q c) - k0_pay8 (F := Ideal) x1 (ix2 q c) * Ideal.ofBits .f32 0x7149F2CA#32 = _
  rw [pay8_at]
  rfl

/-- The row's maximum of the masked logits, taken from −∞ and kept as a column. -/
theorem pay17_at (x0 x1 : FVec Ideal S2048x512 .f32) (q : Fin 2048) (u : Fin 1) :
    k0_pay17 (F := Ideal) x0 (k0_pay8 x1) (ix2 q u) = rowMax (blockRow x0 q) (blockRow x1 q) := by
  unfold k0_pay17
  refine (Cert.Lib.LaneMaxColumn.laneMax_column_apply (k0_pay16 (F := Ideal) x0 (k0_pay8 x1)) _ _ _ _ q u).trans ?_
  rw [neg_inf_word]
  exact congrArg (fun f => (Finset.univ : Finset (Fin 512)).fold max ⊥ f) (funext fun k => pay16_at x0 x1 q k)

/-- The row's sum of label × log σ(logit), kept as a column. -/
theorem pay11_at (x0 x1 : FVec Ideal S2048x512 .f32) (q : Fin 2048) (u : Fin 1) :
    k0_pay11 (F := Ideal) x0 x1 (ix2 q u) = ∑ c, clip (blockRow x1 q) c * logSigmoid (blockRow x0 q c) := by
  unfold k0_pay11
  refine (Cert.Lib.RowReduceColumn.rowSum_column_apply _ _ _ _ _ q u).trans ?_
  refine Finset.sum_congr rfl fun d _ => ?_
  show k0_pay8 (F := Ideal) x1 (ix2 q d) * _ = _
  rw [pay8_at]
  exact congrArg (clip (blockRow x1 q) d * ·) (logSigmoid_chain _ (x0 (ix2 q d)) zero_word)

end Cert.KernelIdeal.KPay

end
-- ==== Proof.KPay14.lean ====
/-
  What one grid point adds to the first 1×1 accumulator, at the ideal instance: the block's sum, over its 2048 rows, of
  the row's share of the first loss's numerator, rowMask · (log σ(−x₀) + Σ_c label_c · log σ(x_c)). The stored value is the
  accumulator plus a column [2048, 1] summed over its rows; the column's entry at row q is the indicator column's entry
  times (the log σ chain of the negated column-0 logit, plus the weighted-sum column's entry).
-/
import proofs.«142532_j41180146434453_2_alg».proof.Proof.KPayRows

noncomputable section

open scoped BigOperators

namespace Cert.KernelIdeal.KPay

open Cert.KernelIdeal Cert.KernelIdeal.Gen Idealize.ShloMosaic Idealize.ShloMosaic.ValueIdx Cert.MatLoss

/-- The first store over any three column operands: the accumulator plus the column sum of
    m · (log σ(n) + s), with m, s, n the row's entries of the three operands. -/
theorem pay14_core (v15 v36 v39 : FVec Ideal S2048x1 .f32) (acc : FVec Ideal S1x1 .f32) (a b : Fin 1) :
    k0_pay14 (F := Ideal) v15 v36 v39 (Scalar.ofBits .f32 0x00000000#32) acc (ix2 a b)
      = acc (ix2 a b) + ∑ q : Fin 2048, v15 (ix2 q 0) * (logSigmoid (v39 (ix2 q 0)) + v36 (ix2 q 0)) := by
  unfold k0_pay14
  refine (congrFun (shapeCast_self _ _) (ix2 a b)).trans ?_
  refine congrArg (acc (ix2 a b) + ·) ?_
  refine (colSum_apply _ _ _ _ _ a b).trans ?_
  refine Finset.sum_congr rfl fun q _ => ?_
  exact congrArg (fun t => v15 (ix2 q 0) * (t + v36 (ix2 q 0))) (logSigmoid_chain _ (v39 (ix2 q 0)) zero_word)

/-- The first accumulator gains the block's sum of rowMask · term. -/
theorem pay14_eq (x0 x1 : FVec Ideal S2048x512 .f32) (acc : FVec Ideal S1x1 .f32) (j : S1x1.Idx) :
    k0_pay14 (F := Ideal) (k0_pay10 x1) (k0_pay11 x0 x1) (k0_pay13 x0) (Scalar.ofBits .f32 0x00000000#32) acc j
      = acc j + ∑ q : Fin 2048, a1 (blockRow x0 q) (blockRow x1 q) := by
  obtain ⟨a, b, rfl⟩ : ∃ (a b : Fin 1), j = ix2 a b := ⟨j 0, j 1, eq_ix2 j⟩
  refine (pay14_core _ _ _ acc a b).trans (congrArg (acc (ix2 a b) + ·) (Finset.sum_congr rfl fun q _ => ?_))
  rw [pay10_at x1 q 0, pay13_at x0 q 0, pay11_at x0 x1 q 0, a1, term]

end Cert.KernelIdeal.KPay

end
-- ==== Proof.KPay15.lean ====
/-
  What one grid point adds to the second 1×1 accumulator, at the ideal instance: the block's sum, over its 2048 rows, of
  the row's share of the first loss's denominator, rowMask · (1 + posCount).
-/
import proofs.«142532_j41180146434453_2_alg».proof.Proof.KPayRows

noncomputable section

open scoped BigOperators

namespace Cert.KernelIdeal.KPay

open Cert.KernelIdeal Cert.KernelIdeal.Gen Idealize.ShloMosaic Idealize.ShloMosaic.ValueIdx Cert.MatLoss

/-- The second store over any two column operands: the accumulator plus the column sum of m · (1 + p), with m, p the
    row's entries of the two operands and 1 spelt by its word. -/
theorem pay15_core (v11 v15 : FVec Ideal S2048x1 .f32) (acc : FVec Ideal S1x1 .f32) (a b : Fin 1) :
    k0_pay15 (F := Ideal) v11 v15 acc (ix2 a b)
      = acc (ix2 a b) + ∑ q : Fin 2048, v15 (ix2 q 0) * (Scalar.ofBits (F := Ideal) .f32 0x3F800000#32 + v11 (ix2 q 0)) := by
  unfold k0_pay15
  refine (congrFun (shapeCast_self _ _) (ix2 a b)).trans ?_
  refine congrArg (acc (ix2 a b) + ·) ?_
  exact colSum_apply _ _ _ _ _ a b

/-- The second accumulator gains the block's sum of rowMask · (1 + posCount). -/
theorem pay15_eq (x1 : FVec Ideal S2048x512 .f32) (acc : FVec Ideal S1x1 .f32) (j : S1x1.Idx) :
    k0_pay15 (F := Ideal) (k0_pay9 x1) (k0_pay10 x1) acc j = acc j + ∑ q : Fin 2048, a2 (blockRow x1 q) := by
  obtain ⟨a, b, rfl⟩ : ∃ (a b : Fin 1), j = ix2 a b := ⟨j 0, j 1, eq_ix2 j⟩
  refine (pay15_core _ _ acc a b).trans (congrArg (acc (ix2 a b) + ·) (Finset.sum_congr rfl fun q _ => ?_))
  rw [pay10_at x1 q 0, pay9_at x1 q 0, one_word, a2]

end Cert.KernelIdeal.KPay

end
-- ==== Proof.KPay1.lean ====
/-
  What one grid point adds to the third 1×1 accumulator, at the ideal instance: the block's sum, over its 2048 rows, of
  the row's softmax loss at column 0 as the kernel arranges it, (max + log Σ_c exp(masked_c − max)) − x₀. The row maximum,
  a column, is broadcast along the rows before it is subtracted; the sum of exponentials is a row sum kept as a column.
-/
import proofs.«142532_j41180146434453_2_alg».proof.Proof.KPayRows

noncomputable section

open scoped BigOperators

namespace Cert.KernelIdeal.KPay

open Cert.KernelIdeal Cert.KernelIdeal.Gen Idealize.ShloMosaic Idealize.ShloMosaic.ValueIdx Cert.MatLoss

/-- The third store over any three operands: the accumulator plus the column sum of (m + log Σ_c exp(s_c − m)) − x₀,
    with m, s, x₀ the row's entries of the three operands. -/
theorem pay1_core (v37 : FVec Ideal S2048x1 .f32) (v79 : FVec Ideal S2048x512 .f32) (v81 : FVec Ideal S2048x1 .f32)
    (acc : FVec Ideal S1x1 .f32) (a b : Fin 1) :
    k0_pay1 (F := Ideal) v37 v79 v81 acc (ix2 a b)
      = acc (ix2 a b) + ∑ q : Fin 2048,
          ((v81 (ix2 q 0) + Ideal.log (∑ c : Fin 512, Ideal.exp (v79 (ix2 q c) - v81 (ix2 q 0)))) - v37 (ix2 q 0)) := by
  unfold k0_pay1
  refine (congrFun (shapeCast_self _ _) (ix2 a b)).trans ?_
  refine congrArg (acc (ix2 a b) + ·) ?_
  refine (colSum_apply _ _ _ _ _ a b).trans ?_
  refine Finset.sum_congr rfl fun q _ => ?_
  refine congrArg (fun t => (v81 (ix2 q 0) + Ideal.log t) - v37 (ix2 q 0)) ?_
  refine (Cert.Lib.RowReduceColumn.rowSum_column_apply _ _ _ _ _ q 0).trans ?_
  refine Finset.sum_congr rfl fun c _ => ?_
  exact congrArg (fun t => Ideal.exp (v79 (ix2 q c) - t)) (broadcastTo_a1_ab_apply _ _ q c)

/-- The third accumulator gains the block's sum of the rows' softmax losses at column 0. -/
theorem pay1_eq (x0 x1 : FVec Ideal S2048x512 .f32) (acc : FVec Ideal S1x1 .f32) (j : S1x1.Idx) :
    k0_pay1 (F := Ideal) (k0_pay12 x0) (k0_pay16 x0 (k0_pay8 x1)) (k0_pay17 x0 (k0_pay8 x1)) acc j
      = acc j + ∑ q : Fin 2048, a3 (blockRow x0 q) (blockRow x1 q) := by
  obtain ⟨a, b, rfl⟩ : ∃ (a b : Fin 1), j = ix2 a b := ⟨j 0, j 1, eq_ix2 j⟩
  refine (pay1_core _ _ _ acc a b).trans (congrArg (acc (ix2 a b) + ·) (Finset.sum_congr rfl fun q _ => ?_))
  rw [pay17_at x0 x1 q 0, pay12_at x0 q 0, a3, sumExp]
  refine congrArg (fun t => (rowMax (blockRow x0 q) (blockRow x1 q) + Ideal.log t) - blockRow x0 q 0) ?_
  exact Finset.sum_congr rfl fun c _ => by rw [pay16_at x0 x1 q c]

end Cert.KernelIdeal.KPay

end
-- ==== Proof.KPay.lean ====
/-
  The kernel body's arithmetic at the ideal instance, stored value by stored value. One grid point loads a 2048×512
  block of logits and one of labels and adds to three 1×1 accumulators the block's sums, over its 2048 rows, of the
  specification's three row quantities (the three imported modules, one per accumulator). Here: the three initial
  stores write 0, and the three final ones copy a 1×1 accumulator into a 1×1×1 block.
-/
import proofs.«142532_j41180146434453_2_alg».proof.Proof.KPay14
import proofs.«142532_j41180146434453_2_alg».proof.Proof.KPay15
import proofs.«142532_j41180146434453_2_alg».proof.Proof.KPay1

noncomputable section

open scoped BigOperators

namespace Cert.KernelIdeal.KPay

open Cert.KernelIdeal Cert.KernelIdeal.Gen Idealize.ShloMosaic Idealize.ShloMosaic.ValueIdx Cert.MatLoss

/-- The initial stores write 0. -/
theorem pay5_eq (j : S1x1.Idx) : k0_pay5 (F := Ideal) j = 0 := by
  unfold k0_pay5
  exact (congrFun (shapeCast_self _ _) j).trans zero_word

theorem pay6_eq (j : S1x1.Idx) : k0_pay6 (F := Ideal) j = 0 := by
  unfold k0_pay6
  exact (congrFun (shapeCast_self _ _) j).trans zero_word

theorem pay7_eq (j : S1x1.Idx) : k0_pay7 (F := Ideal) j = 0 := by
  unfold k0_pay7
  exact (congrFun (shapeCast_self _ _) j).trans zero_word

/-- A 1×1 accumulator viewed as a 1×1×1 block keeps its one entry. -/
theorem pay2_eq (v : FVec Ideal S1x1 .f32) (j : S1x1x1.Idx) : k0_pay2 (F := Ideal) v j = v (ix2 0 0) := by
  obtain ⟨a, b, c, rfl⟩ : ∃ (a b c : Fin 1), j = ix3 a b c := ⟨j 0, j 1, j 2, eq_ix3 j⟩
  unfold k0_pay2
  exact (shapeCast_ab_1ab_apply v _ a b c).trans (by rw [Subsingleton.elim b 0, Subsingleton.elim c 0])

theorem pay3_eq (v : FVec Ideal S1x1 .f32) (j : S1x1x1.Idx) : k0_pay3 (F := Ideal) v j = v (ix2 0 0) := by
  obtain ⟨a, b, c, rfl⟩ : ∃ (a b c : Fin 1), j = ix3 a b c := ⟨j 0, j 1, j 2, eq_ix3 j⟩
  unfold k0_pay3
  exact (shapeCast_ab_1ab_apply v _ a b c).trans (by rw [Subsingleton.elim b 0, Subsingleton.elim c 0])

theorem pay4_eq (v : FVec Ideal S1x1 .f32) (j : S1x1x1.Idx) : k0_pay4 (F := Ideal) v j = v (ix2 0 0) := by
  obtain ⟨a, b, c, rfl⟩ : ∃ (a b c : Fin 1), j = ix3 a b c := ⟨j 0, j 1, j 2, eq_ix3 j⟩
  unfold k0_pay4
  exact (shapeCast_ab_1ab_apply v _ a b c).trans (by rw [Subsingleton.elim b 0, Subsingleton.elim c 0])

end Cert.KernelIdeal.KPay

end
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.Regroup.lean ====
/-
  The grid's order of summation against the rows' own order. The 65536 rows are 32 consecutive blocks of 2048, and the
  32 blocks are 2 consecutive runs of 16: the sum over all rows is the sum over the runs of the sum over a run's blocks of
  the sum over a block's rows, each partial sum started from zero.
-/
import Mathlib.Algebra.BigOperators.Fin
import proofs.«142532_j41180146434453_2_alg».proof.Proof.LibSumRuns

open scoped BigOperators

namespace Cert.MatLoss

/-- Row `q` of block `n` is below 65536. -/
theorem block_row_lt {n : ℕ} (h : n < 32) (q : Fin 2048) : n * 2048 + q.val < 65536 := by
  have := q.isLt; omega

/-- If `sh n` is block `n`'s sum of `f` over its 2048 rows, the runs' totals added up are the sum of `f` over all rows. -/
theorem sum_by_runs {M : Type*} [AddCommMonoid M] (f : Fin 65536 → M) (sh : ℕ → M)
    (hsh : ∀ (n : ℕ) (h : n < 32), sh n = ∑ q : Fin 2048, f ⟨n * 2048 + q.val, block_row_lt h q⟩) :
    0 + ∑ p : Fin 2, (0 + ∑ s ∈ Finset.range 16, sh (16 * p.val + s)) = ∑ r : Fin 65536, f r := by
  have h1 : ∑ r : Fin 65536, f r = ∑ k : Fin (32 * 2048), f ⟨k.val, k.isLt⟩ := rfl
  rw [h1, Cert.Lib.SumRuns.sum_runs 32 2048]
  have h2 : ∑ n : Fin 32, ∑ q : Fin 2048, f ⟨n.val * 2048 + q.val, Cert.Lib.SumRuns.run_lt n q⟩
      = ∑ k : Fin (2 * 16), ∑ q : Fin 2048, f ⟨k.val * 2048 + q.val, block_row_lt k.isLt q⟩ := rfl
  rw [h2, Cert.Lib.SumRuns.sum_runs 2 16, zero_add]
  refine Finset.sum_congr rfl fun p _ => ?_
  rw [zero_add, Finset.sum_range]
  refine Finset.sum_congr rfl fun s _ => ?_
  have hn : 16 * p.val + s.val < 32 := by have := p.isLt; have := s.isLt; omega
  rw [hsh _ hn]
  refine Finset.sum_congr rfl fun q _ => congrArg f (Fin.ext ?_)
  show (16 * p.val + s.val) * 2048 + q.val = (p.val * 16 + s.val) * 2048 + q.val
  rw [Nat.mul_comm 16 p.val]

end Cert.MatLoss
-- ==== Proof.KAcc.lean ====
/-
  The kernel's value. Each of the three accumulators after a grid point is the sum of the shares of its run's points so
  far (a share: the block's 2048 row terms added up); a run's last point writes the run's totals into entry `p` of the
  three [2,1,1] output arrays; the host lines after the region add the two runs' totals and combine the three sums. The
  blocks are consecutive rows of the argument arrays, so the totals are the sums over all 65536 rows, and the result
  buffer ends at the kernel's arrangement of the loss.
-/
import proofs.«142532_j41180146434453_2_alg».proof.Proof.KFold
import proofs.«142532_j41180146434453_2_alg».proof.Proof.Spec
import proofs.«142532_j41180146434453_2_alg».proof.Proof.KPay
import proofs.«142532_j41180146434453_2_alg».proof.Proof.Regroup
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.KAcc

open Cert.KernelIdeal Cert.KernelIdeal.Gen Cert.KernelIdeal.KPieces Cert.KernelIdeal.KFold Cert.MatLoss
open Idealize.ShloMosaic Idealize.ShloMosaic.TcCoe Idealize.ShloMosaic.ValueIdx
open Idealize.SL Idealize.SL.Sem
open Idealize.ShloMosaic.Pipeline (Dat)
open Cert.KernelIdeal.KPay

variable (m : (ℓ : Loc nD τ sig) → Buf (Elt Ideal) ℓ)

/-- Point `n`'s share of sum 1: its block's 2048 row terms added up (zero past the grid). -/
def share0 (c : Dev nD) (n : ℕ) : S1x1.Idx → EReal := fun _ =>
  if h : n < cfg0.N then ∑ q : Fin 2048, a1 (blockRow (iblk m c 0 ⟨n, h⟩) q) (blockRow (iblk m c 1 ⟨n, h⟩) q) else 0

/-- Accumulator 0 after point `t`: the shares of its run's points up to `t`. -/
theorem scr0_closed (c : Dev nD) (t : Fin cfg0.N) (i : S1x1.Idx) :
    (outsAt0 m c t.val t.isLt).2.2.2.1 i
      = 0 + ∑ s ∈ Finset.range (t.val % 16 + 1), share0 m c (16 * (t.val / 16) + s) i := by
  have hN : cfg0.N = 32 := N_0
  have h' : 16 * (t.val / 16) + t.val % 16 < cfg0.N := by rw [Nat.div_add_mod]; exact t.isLt
  refine (congrFun (Pipeline.eq_accAt_of_mod (fun n h => (outsAt0 m c n h).2.2.2.1) 16
      (fun n h => addS0 (iblk m c 0 ⟨n, h⟩) (iblk m c 1 ⟨n, h⟩) (k0_pay5 (F := Ideal)))
      (fun n h acc => addS0 (iblk m c 0 ⟨n, h⟩) (iblk m c 1 ⟨n, h⟩) acc)
      (fun n h h0 => (scr_first m c ⟨n, h⟩ h0).1)
      (fun n h h0 => (scr_next m c ⟨n + 1, h⟩ h0).1)
      (by decide) t.val t.isLt h') i).trans ?_
  refine Pipeline.accAt_add_apply _ _ (fun _ => (0 : EReal)) (share0 m c) (16 * (t.val / 16)) 15 ?_ ?_
    (t.val % 16) (by omega) h' i
  · intro h i
    unfold addS0 share0
    rw [dif_pos h]
    exact (pay14_eq (iblk m c 0 ⟨16 * (t.val / 16), h⟩) (iblk m c 1 ⟨16 * (t.val / 16), h⟩) (k0_pay5 (F := Ideal)) i).trans (by rw [pay5_eq])
  · intro n h acc i _ _
    unfold addS0 share0
    rw [dif_pos h]
    exact pay14_eq (iblk m c 0 ⟨n, h⟩) (iblk m c 1 ⟨n, h⟩) acc i

/-- Point `n`'s share of sum 2: its block's 2048 row terms added up (zero past the grid). -/
def share1 (c : Dev nD) (n : ℕ) : S1x1.Idx → EReal := fun _ =>
  if h : n < cfg0.N then ∑ q : Fin 2048, a2 (blockRow (iblk m c 1 ⟨n, h⟩) q) else 0

/-- Accumulator 1 after point `t`: the shares of its run's points up to `t`. -/
theorem scr1_closed (c : Dev nD) (t : Fin cfg0.N) (i : S1x1.Idx) :
    (outsAt0 m c t.val t.isLt).2.2.2.2.1 i
      = 0 + ∑ s ∈ Finset.range (t.val % 16 + 1), share1 m c (16 * (t.val / 16) + s) i := by
  have hN : cfg0.N = 32 := N_0
  have h' : 16 * (t.val / 16) + t.val % 16 < cfg0.N := by rw [Nat.div_add_mod]; exact t.isLt
  refine (congrFun (Pipeline.eq_accAt_of_mod (fun n h => (outsAt0 m c n h).2.2.2.2.1) 16
      (fun n h => addS1 (iblk m c 0 ⟨n, h⟩) (iblk m c 1 ⟨n, h⟩) (k0_pay6 (F := Ideal)))
      (fun n h acc => addS1 (iblk m c 0 ⟨n, h⟩) (iblk m c 1 ⟨n, h⟩) acc)
      (fun n h h0 => (scr_first m c ⟨n, h⟩ h0).2.1)
      (fun n h h0 => (scr_next m c ⟨n + 1, h⟩ h0).2.1)
      (by decide) t.val t.isLt h') i).trans ?_
  refine Pipeline.accAt_add_apply _ _ (fun _ => (0 : EReal)) (share1 m c) (16 * (t.val / 16)) 15 ?_ ?_
    (t.val % 16) (by omega) h' i
  · intro h i
    unfold addS1 share1
    rw [dif_pos h]
    exact (pay15_eq (iblk m c 1 ⟨16 * (t.val / 16), h⟩) (k0_pay6 (F := Ideal)) i).trans (by rw [pay6_eq])
  · intro n h acc i _ _
    unfold addS1 share1
    rw [dif_pos h]
    exact pay15_eq (iblk m c 1 ⟨n, h⟩) acc i

/-- Point `n`'s share of sum 3: its block's 2048 row terms added up (zero past the grid). -/
def share2 (c : Dev nD) (n : ℕ) : S1x1.Idx → EReal := fun _ =>
  if h : n < cfg0.N then ∑ q : Fin 2048, a3 (blockRow (iblk m c 0 ⟨n, h⟩) q) (blockRow (iblk m c 1 ⟨n, h⟩) q) else 0

/-- Accumulator 2 after point `t`: the shares of its run's points up to `t`. -/
theorem scr2_closed (c : Dev nD) (t : Fin cfg0.N) (i : S1x1.Idx) :
    (outsAt0 m c t.val t.isLt).2.2.2.2.2 i
      = 0 + ∑ s ∈ Finset.range (t.val % 16 + 1), share2 m c (16 * (t.val / 16) + s) i := by
  have hN : cfg0.N = 32 := N_0
  have h' : 16 * (t.val / 16) + t.val % 16 < cfg0.N := by rw [Nat.div_add_mod]; exact t.isLt
  refine (congrFun (Pipeline.eq_accAt_of_mod (fun n h => (outsAt0 m c n h).2.2.2.2.2) 16
      (fun n h => addS2 (iblk m c 0 ⟨n, h⟩) (iblk m c 1 ⟨n, h⟩) (k0_pay7 (F := Ideal)))
      (fun n h acc => addS2 (iblk m c 0 ⟨n, h⟩) (iblk m c 1 ⟨n, h⟩) acc)
      (fun n h h0 => (scr_first m c ⟨n, h⟩ h0).2.2)
      (fun n h h0 => (scr_next m c ⟨n + 1, h⟩ h0).2.2)
      (by decide) t.val t.isLt h') i).trans ?_
  refine Pipeline.accAt_add_apply _ _ (fun _ => (0 : EReal)) (share2 m c) (16 * (t.val / 16)) 15 ?_ ?_
    (t.val % 16) (by omega) h' i
  · intro h i
    unfold addS2 share2
    rw [dif_pos h]
    exact (pay1_eq (iblk m c 0 ⟨16 * (t.val / 16), h⟩) (iblk m c 1 ⟨16 * (t.val / 16), h⟩) (k0_pay7 (F := Ideal)) i).trans (by rw [pay7_eq])
  · intro n h acc i _ _
    unfold addS2 share2
    rw [dif_pos h]
    exact pay1_eq (iblk m c 0 ⟨n, h⟩) (iblk m c 1 ⟨n, h⟩) acc i

/-- A run's total of sum 1: the shares of the run's sixteen points, from zero. -/
def runTot0 (c : Dev nD) (p : ℕ) : EReal := 0 + ∑ s ∈ Finset.range 16, share0 m c (16 * p + s) (ix2 0 0)

/-- What output array 0 ends holding: entry `p` is run `p`'s total. -/
def G2 (c : Dev nD) : S2x1x1.Idx → EReal := fun i => runTot0 m c (i 0).val

theorem idx2 : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- A run's last point writes back the run's total, into the entry of its run. -/
theorem flushed2_eq (c : Dev nD) (t : Fin cfg0.N) (hf : (cfg0.win 2).flush t = true) :
    (dats m 0 c).flushed 2 t = ((cfg0.win 2).blk t).view.read (Elt Ideal) (G2 m c) := by
  have h15 : t.val % 16 = 15 := (flush0_2 t).mp hf
  show (cfg0.win 2).cut (grid0.coords t) ((dats m 0 c).after 2 t) = _
  rw [after0_2, (out_last m c t h15).1]
  funext y
  show k0_pay2 ((outsAt0 m c t.val t.isLt).2.2.2.1) y = G2 m c (((cfg0.win 2).blk t).view.emb y)
  rw [pay2_eq, scr0_closed, h15]
  unfold G2 runTot0
  have he : ((((cfg0.win 2).blk t).view.emb y) 0).val = t.val / 16 := by
    show win0_2.index t (0 : Fin 3) * 1 + 1 * (y 0).val = _
    have hy : (y 0).val < 1 := (y 0).isLt
    rw [(idx2 t).1]; omega
  rw [he]

theorem mem_blk2 (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0_0).slice (win0_2.rect t)).set ↔ _
  rw [View.set_slice_whole, Rect.mem_set_unit]
  exact Iff.rfl

/-- The two runs' last points cover the array. -/
theorem cover2 (i : S2x1x1.Idx) : ∃ t : Fin cfg0.N, (cfg0.win 2).flush t = true ∧ i ∈ ((cfg0.win 2).blk t).view.set := by
  have hN : cfg0.N = 32 := N_0
  have h0 : (i 0).val < 2 := (i 0).isLt
  have h1 : (i 1).val < 1 := (i 1).isLt
  have h2 : (i 2).val < 1 := (i 2).isLt
  have hlt : 16 * (i 0).val + 15 < cfg0.N := by omega
  refine ⟨⟨_, hlt⟩, (flush0_2 _).mpr (by show (16 * (i 0).val + 15) % 16 = 15; omega), ?_⟩
  rw [mem_blk2]
  obtain ⟨e0, e1, e2⟩ := idx2 ⟨_, hlt⟩
  have e0' : win0_2.index ⟨_, hlt⟩ (0 : Fin 3) = (i 0).val := by rw [e0]; show (16 * (i 0).val + 15) / 16 = _; omega
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 1 ≤ (i 1).val ∧ (i 1).val < win0_2.index _ (1 : Fin 3) * 1 + 1; rw [e1]; omega
  | ⟨2, _⟩ => show win0_2.index _ (2 : Fin 3) * 1 ≤ (i 2).val ∧ (i 2).val < win0_2.index _ (2 : Fin 3) * 1 + 1; rw [e2]; omega

/-- Output array 0 after the run. -/
theorem final2 (c : Dev nD) : (dats m 0 c).arrAt 2 cfg0.N = G2 m c :=
  (dats m 0 c).arrAt_eq_of_cover 2 (G2 m c) (flushed2_eq m c) (cover2)

/-- A run's total of sum 2: the shares of the run's sixteen points, from zero. -/
def runTot1 (c : Dev nD) (p : ℕ) : EReal := 0 + ∑ s ∈ Finset.range 16, share1 m c (16 * p + s) (ix2 0 0)

/-- What output array 1 ends holding: entry `p` is run `p`'s total. -/
def G3 (c : Dev nD) : S2x1x1.Idx → EReal := fun i => runTot1 m c (i 0).val

theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- A run's last point writes back the run's total, into the entry of its run. -/
theorem flushed3_eq (c : Dev nD) (t : Fin cfg0.N) (hf : (cfg0.win 3).flush t = true) :
    (dats m 0 c).flushed 3 t = ((cfg0.win 3).blk t).view.read (Elt Ideal) (G3 m c) := by
  have h15 : t.val % 16 = 15 := (flush0_3 t).mp hf
  show (cfg0.win 3).cut (grid0.coords t) ((dats m 0 c).after 3 t) = _
  rw [after0_3, (out_last m c t h15).2.1]
  funext y
  show k0_pay3 ((outsAt0 m c t.val t.isLt).2.2.2.2.1) y = G3 m c (((cfg0.win 3).blk t).view.emb y)
  rw [pay3_eq, scr1_closed, h15]
  unfold G3 runTot1
  have he : ((((cfg0.win 3).blk t).view.emb y) 0).val = t.val / 16 := by
    show win0_3.index t (0 : Fin 3) * 1 + 1 * (y 0).val = _
    have hy : (y 0).val < 1 := (y 0).isLt
    rw [(idx3 t).1]; omega
  rw [he]

theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v0_1).slice (win0_3.rect t)).set ↔ _
  rw [View.set_slice_whole, Rect.mem_set_unit]
  exact Iff.rfl

/-- The two runs' last points cover the array. -/
theorem cover3 (i : S2x1x1.Idx) : ∃ t : Fin cfg0.N, (cfg0.win 3).flush t = true ∧ i ∈ ((cfg0.win 3).blk t).view.set := by
  have hN : cfg0.N = 32 := N_0
  have h0 : (i 0).val < 2 := (i 0).isLt
  have h1 : (i 1).val < 1 := (i 1).isLt
  have h2 : (i 2).val < 1 := (i 2).isLt
  have hlt : 16 * (i 0).val + 15 < cfg0.N := by omega
  refine ⟨⟨_, hlt⟩, (flush0_3 _).mpr (by show (16 * (i 0).val + 15) % 16 = 15; omega), ?_⟩
  rw [mem_blk3]
  obtain ⟨e0, e1, e2⟩ := idx3 ⟨_, hlt⟩
  have e0' : win0_3.index ⟨_, hlt⟩ (0 : Fin 3) = (i 0).val := by rw [e0]; show (16 * (i 0).val + 15) / 16 = _; omega
  intro a
  match a with
  | ⟨0, _⟩ => show win0_3.index _ (0 : Fin 3) * 1 ≤ (i 0).val ∧ (i 0).val < win0_3.index _ (0 : Fin 3) * 1 + 1; rw [e0']; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 1 ≤ (i 2).val ∧ (i 2).val < win0_3.index _ (2 : Fin 3) * 1 + 1; rw [e2]; omega

/-- Output array 1 after the run. -/
theorem final3 (c : Dev nD) : (dats m 0 c).arrAt 3 cfg0.N = G3 m c :=
  (dats m 0 c).arrAt_eq_of_cover 3 (G3 m c) (flushed3_eq m c) (cover3)

/-- A run's total of sum 3: the shares of the run's sixteen points, from zero. -/
def runTot2 (c : Dev nD) (p : ℕ) : EReal := 0 + ∑ s ∈ Finset.range 16, share2 m c (16 * p + s) (ix2 0 0)

/-- What output array 2 ends holding: entry `p` is run `p`'s total. -/
def G4 (c : Dev nD) : S2x1x1.Idx → EReal := fun i => runTot2 m c (i 0).val

theorem idx4 : ∀ t : Fin cfg0.N, win0_4.index t (0 : Fin 3) = t.val / 16 ∧ win0_4.index t (1 : Fin 3) = 0
    ∧ win0_4.index t (2 : Fin 3) = 0 :=
  (by decide +kernel : ∀ t : Fin grid0.N, _)

/-- A run's last point writes back the run's total, into the entry of its run. -/
theorem flushed4_eq (c : Dev nD) (t : Fin cfg0.N) (hf : (cfg0.win 4).flush t = true) :
    (dats m 0 c).flushed 4 t = ((cfg0.win 4).blk t).view.read (Elt Ideal) (G4 m c) := by
  have h15 : t.val % 16 = 15 := (flush0_4 t).mp hf
  show (cfg0.win 4).cut (grid0.coords t) ((dats m 0 c).after 4 t) = _
  rw [after0_4, (out_last m c t h15).2.2]
  funext y
  show k0_pay4 ((outsAt0 m c t.val t.isLt).2.2.2.2.2) y = G4 m c (((cfg0.win 4).blk t).view.emb y)
  rw [pay4_eq, scr2_closed, h15]
  unfold G4 runTot2
  have he : ((((cfg0.win 4).blk t).view.emb y) 0).val = t.val / 16 := by
    show win0_4.index t (0 : Fin 3) * 1 + 1 * (y 0).val = _
    have hy : (y 0).val < 1 := (y 0).isLt
    rw [(idx4 t).1]; omega
  rw [he]

theorem mem_blk4 (t : Fin cfg0.N) (i : S2x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v0_2).slice (win0_4.rect t)).set ↔ _
  rw [View.set_slice_whole, Rect.mem_set_unit]
  exact Iff.rfl

/-- The two runs' last points cover the array. -/
theorem cover4 (i : S2x1x1.Idx) : ∃ t : Fin cfg0.N, (cfg0.win 4).flush t = true ∧ i ∈ ((cfg0.win 4).blk t).view.set := by
  have hN : cfg0.N = 32 := N_0
  have h0 : (i 0).val < 2 := (i 0).isLt
  have h1 : (i 1).val < 1 := (i 1).isLt
  have h2 : (i 2).val < 1 := (i 2).isLt
  have hlt : 16 * (i 0).val + 15 < cfg0.N := by omega
  refine ⟨⟨_, hlt⟩, (flush0_4 _).mpr (by show (16 * (i 0).val + 15) % 16 = 15; omega), ?_⟩
  rw [mem_blk4]
  obtain ⟨e0, e1, e2⟩ := idx4 ⟨_, hlt⟩
  have e0' : win0_4.index ⟨_, hlt⟩ (0 : Fin 3) = (i 0).val := by rw [e0]; show (16 * (i 0).val + 15) / 16 = _; omega
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 1 ≤ (i 1).val ∧ (i 1).val < win0_4.index _ (1 : Fin 3) * 1 + 1; rw [e1]; omega
  | ⟨2, _⟩ => show win0_4.index _ (2 : Fin 3) * 1 ≤ (i 2).val ∧ (i 2).val < win0_4.index _ (2 : Fin 3) * 1 + 1; rw [e2]; omega

/-- Output array 2 after the run. -/
theorem final4 (c : Dev nD) : (dats m 0 c).arrAt 4 cfg0.N = G4 m c :=
  (dats m 0 c).arrAt_eq_of_cover 4 (G4 m c) (flushed4_eq m c) (cover4)

/-! ## The three output arrays read by the host lines after the region -/

/-- An index of a [2,1,1] array is its first coordinate. -/
def idxEquivRuns : S2x1x1.Idx ≃ Fin 2 where
  toFun i := i 0
  invFun p := ix3 p (0 : Fin 1) (0 : Fin 1)
  left_inv i := by
    funext a
    match a with
    | ⟨0, _⟩ => rfl
    | ⟨1, _⟩ => exact Fin.ext (by show (0 : ℕ) = (i 1).val; have h : (i 1).val < 1 := (i 1).isLt; omega)
    | ⟨2, _⟩ => exact Fin.ext (by show (0 : ℕ) = (i 2).val; have h : (i 2).val < 1 := (i 2).isLt; omega)
  right_inv _ := rfl

theorem sum_runsIdx (G : S2x1x1.Idx → EReal) : ∑ i, G i = ∑ p : Fin 2, G (ix3 p (0 : Fin 1) (0 : Fin 1)) := by
  rw [← Equiv.sum_comp idxEquivRuns.symm G]
  rfl

theorem arr2 (c : Dev nD) :
    Pipeline.withArrays (cfgs 0).spec c (V0 m c) (fun w => (dats m 0 c).arrAt w (cfgs 0).N) (Proc.devRef .tc main_v0_0) = G2 m c :=
  (Pipeline.withArrays_arr spec0 launch0.win.arr_inj c _ _ 2).trans (final2 m c)
theorem arr3 (c : Dev nD) :
    Pipeline.withArrays (cfgs 0).spec c (V0 m c) (fun w => (dats m 0 c).arrAt w (cfgs 0).N) (Proc.devRef .tc main_v0_1) = G3 m c :=
  (Pipeline.withArrays_arr spec0 launch0.win.arr_inj c _ _ 3).trans (final3 m c)
theorem arr4 (c : Dev nD) :
    Pipeline.withArrays (cfgs 0).spec c (V0 m c) (fun w => (dats m 0 c).arrAt w (cfgs 0).N) (Proc.devRef .tc main_v0_2) = G4 m c :=
  (Pipeline.withArrays_arr spec0 launch0.win.arr_inj c _ _ 4).trans (final4 m c)

/-! ## The blocks are the arrays' rows -/

theorem idxIn : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `q` of the logits block at point `t` is row `2048 t + q` of the logits. -/
theorem blockRow_logits (c : Dev nD) (t : Fin cfg0.N) (q : Fin 2048) (hr : t.val * 2048 + q.val < 65536) :
    blockRow (iblk m c 0 t) q = rowOf (m ((c.tc : Thread nD τ).loc main_arg0)) ⟨t.val * 2048 + q.val, hr⟩ := by
  funext cc
  unfold blockRow rowOf iblk
  rw [View.read_apply]
  show V m c main_arg0 _ = m ((c.tc : Thread nD τ).loc main_arg0) _
  rw [V_main_arg0]
  refine congrArg _ ?_
  funext a; apply Fin.ext
  match a with
  | ⟨0, _⟩ => show win0_0.index t (0 : Fin 2) * 2048 + 1 * q.val = t.val * 2048 + q.val; rw [(idxIn t).1]; omega
  | ⟨1, _⟩ => show win0_0.index t (1 : Fin 2) * 512 + 1 * cc.val = cc.val; rw [(idxIn t).2.1]; omega

/-- Row `q` of the labels block at point `t` is row `2048 t + q` of the labels. -/
theorem blockRow_labels (c : Dev nD) (t : Fin cfg0.N) (q : Fin 2048) (hr : t.val * 2048 + q.val < 65536) :
    blockRow (iblk m c 1 t) q = rowOf (m ((c.tc : Thread nD τ).loc main_arg1)) ⟨t.val * 2048 + q.val, hr⟩ := by
  funext cc
  unfold blockRow rowOf iblk
  rw [View.read_apply]
  show V m c main_arg1 _ = m ((c.tc : Thread nD τ).loc main_arg1) _
  rw [V_main_arg1]
  refine congrArg _ ?_
  funext a; apply Fin.ext
  match a with
  | ⟨0, _⟩ => show win0_1.index t (0 : Fin 2) * 2048 + 1 * q.val = t.val * 2048 + q.val; rw [(idxIn t).2.2.1]; omega
  | ⟨1, _⟩ => show win0_1.index t (1 : Fin 2) * 512 + 1 * cc.val = cc.val; rw [(idxIn t).2.2.2]; omega

/-! ## The three totals -/

theorem tot1 (c : Dev nD) : 0 + ∑ j, G2 m c j = Cert.MatLoss.S1 (m ((c.tc : Thread nD τ).loc main_arg0)) (m ((c.tc : Thread nD τ).loc main_arg1)) := by
  rw [sum_runsIdx]
  unfold G2 runTot0 Cert.MatLoss.S1
  refine sum_by_runs (fun r => a1 (rowOf (m ((c.tc : Thread nD τ).loc main_arg0)) r) (rowOf (m ((c.tc : Thread nD τ).loc main_arg1)) r))
    (fun n => share0 m c n (ix2 0 0)) fun n h => ?_
  have h' : n < cfg0.N := by rw [show cfg0.N = 32 from N_0]; exact h
  unfold share0
  rw [dif_pos h']
  refine Finset.sum_congr rfl fun q _ => ?_
  rw [blockRow_logits m c ⟨n, h'⟩ q (block_row_lt h q), blockRow_labels m c ⟨n, h'⟩ q (block_row_lt h q)]

theorem tot2 (c : Dev nD) : 0 + ∑ j, G3 m c j = S2 (m ((c.tc : Thread nD τ).loc main_arg1)) := by
  rw [sum_runsIdx]
  unfold G3 runTot1 S2
  refine sum_by_runs (fun r => a2 (rowOf (m ((c.tc : Thread nD τ).loc main_arg1)) r))
    (fun n => share1 m c n (ix2 0 0)) fun n h => ?_
  have h' : n < cfg0.N := by rw [show cfg0.N = 32 from N_0]; exact h
  unfold share1
  rw [dif_pos h']
  refine Finset.sum_congr rfl fun q _ => ?_
  rw [blockRow_labels m c ⟨n, h'⟩ q (block_row_lt h q)]

theorem tot3 (c : Dev nD) : 0 + ∑ j, G4 m c j = S3 (m ((c.tc : Thread nD τ).loc main_arg0)) (m ((c.tc : Thread nD τ).loc main_arg1)) := by
  rw [sum_runsIdx]
  unfold G4 runTot2 S3
  refine sum_by_runs (fun r => a3 (rowOf (m ((c.tc : Thread nD τ).loc main_arg0)) r) (rowOf (m ((c.tc : Thread nD τ).loc main_arg1)) r))
    (fun n => share2 m c n (ix2 0 0)) fun n h => ?_
  have h' : n < cfg0.N := by rw [show cfg0.N = 32 from N_0]; exact h
  unfold share2
  rw [dif_pos h']
  refine Finset.sum_congr rfl fun q _ => ?_
  rw [blockRow_logits m c ⟨n, h'⟩ q (block_row_lt h q), blockRow_labels m c ⟨n, h'⟩ q (block_row_lt h q)]

/-- The host lines after the region leave the kernel's arrangement of the loss in the result buffer. -/
theorem tail_eq (c : Dev nD) :
    Pipeline.afterTail₀ cfgs (dats m) 0 (V0 m) [hostOps1] c main_v7
      = fun _ => kerLoss (m ((c.tc : Thread nD τ).loc main_arg0)) (m ((c.tc : Thread nD τ).loc main_arg1)) := by
  unfold Pipeline.afterTail₀
  show StableHlo.after hostOps1 _ (Proc.devRef .tc main_v7) = _
  after_results
  rw [arr2 m c, arr3 m c, arr4 m c]
  funext i
  unfold kerLoss nRows
  simp only [addf, Host.negf, Host.divf, Host.reduceAdd, constant, Ideal.hostNegf_def, Ideal.negf_def, Ideal.hostDivf_def,
    Ideal.addf_def, Ideal.hostReduceAdd_def, Ideal.ofBits_def]
  have ht : ∀ b : Fin S_.rank, S_.size b = 1 := fun b => b.elim0
  rw [Ideal.hostReduceAdd_total _ ht, Ideal.hostReduceAdd_total _ ht, Ideal.hostReduceAdd_total _ ht, Ideal.ofBits_zero_f32,
    tot1 m c, tot2 m c, tot3 m c]

/-- The kernel's run, read: the result buffer ends at the kernel's arrangement of the loss of the two argument arrays,
    which end unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v7)
          = (fun _ => kerLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v7 (Pipeline.mem_restRefs_of main_v7 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KAcc

end
-- ==== Proof.RefTerm.lean ====
/-
  What the reference computes, as one pure term of its two argument arrays.

  The reference's operations, composed in order with every intermediate named: the label array with column 0
  overwritten by zero, its row sums, the rows' indicator, the two log-sigmoid chains (each a negation around a
  softplus chain that carries a not-a-number test), the two weighted totals and their quotient, the masked
  logits, their row-wise log-softmax, its column 0 negated, summed and divided by the number of rows.
  Stated for any float values; the operations are the host program's own.
-/
import proofs.«142532_j41180146434453_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The zero word repeated over a vector of 65536 entries. -/
def zeroV : (⟨S65536, .f32⟩ : BufTy).Contents (Elt F) :=
  broadcastInDim S65536 ![] bcast_S_S65536 (constant S_ .f32 0x00000000#32)

/-- The zero word repeated over a 65536 × 512 array. -/
def zeroM : (⟨S65536x512, .f32⟩ : BufTy).Contents (Elt F) :=
  broadcastInDim S65536x512 ![] bcast_S_S65536x512 (constant S_ .f32 0x00000000#32)

/-- The labels with column 0 overwritten by zero: the replacing scatter at column index 0 of a zero vector. -/
def labels (Y : (⟨S65536x512, .f32⟩ : BufTy).Contents (Elt F)) : (⟨S65536x512, .f32⟩ : BufTy).Contents (Elt F) :=
  Host.scatter scatter_S65536x512_S1_S65536_0_1_1_0 (fun _ b => b) Y
    (broadcastInDim S1 ![] bcast_S_S1 (constantI S_ 32 0#32)) zeroV

/-- The row sums of the cleared labels. -/
def posCnt (Y : (⟨S65536x512, .f32⟩ : BufTy).Contents (Elt F)) : (⟨S65536, .f32⟩ : BufTy).Contents (Elt F) :=
  Host.reduceAdd (labels Y) (constant S_ .f32 0x00000000#32) reducesTo_S65536x512_S65536_d1 h_S_

/-- The rows' indicator: the comparison "row sum > 0" converted to a float. -/
def mask (Y : (⟨S65536x512, .f32⟩ : BufTy).Contents (Elt F)) : (⟨S65536, .f32⟩ : BufTy).Contents (Elt F) :=
  uitofp .f32 (cmpf .ogt (posCnt Y) zeroV)

/-- Column 0 of an array, as a vector. -/
def col0 (X : (⟨S65536x512, .f32⟩ : BufTy).Contents (Elt F)) : (⟨S65536, .f32⟩ : BufTy).Contents (Elt F) :=
  fun i => shapeCast S65536 (extractStridedSlice S65536x1 ![0, 0] X slices_S65536x512_S65536x1_0_0) shapeCasts_S65536x1_S65536 i

/-- The softplus chain on a vector: the not-a-number test selects between `x + 0` and
    `max x 0 + log1p (exp (-|x - 0|))`. -/
def softplusV (x : (⟨S65536, .f32⟩ : BufTy).Contents (Elt F)) : (⟨S65536, .f32⟩ : BufTy).Contents (Elt F) :=
  select (cmpf .une (subf x zeroV) (subf x zeroV)) (addf x zeroV)
    (addf (maximumf x zeroV) (Host.log1p (Host.exp (Host.negf (Host.absf (subf x zeroV))))))

/-- The log-sigmoid chain on a vector. -/
def logSigV (x : (⟨S65536, .f32⟩ : BufTy).Contents (Elt F)) : (⟨S65536, .f32⟩ : BufTy).Contents (Elt F) :=
  Host.negf (softplusV (Host.negf x))

/-- The softplus chain on an array. -/
def softplusM (x : (⟨S65536x512, .f32⟩ : BufTy).Contents (Elt F)) : (⟨S65536x512, .f32⟩ : BufTy).Contents (Elt F) :=
  select (cmpf .une (subf x zeroM) (subf x zeroM)) (addf x zeroM)
    (addf (maximumf x zeroM) (Host.log1p (Host.exp (Host.negf (Host.absf (subf x zeroM))))))

/-- The log-sigmoid chain on an array. -/
def logSigM (x : (⟨S65536x512, .f32⟩ : BufTy).Contents (Elt F)) : (⟨S65536x512, .f32⟩ : BufTy).Contents (Elt F) :=
  Host.negf (softplusM (Host.negf x))

/-- Per row: log-sigmoid of minus column 0, plus the label-weighted row sum of the log-sigmoids. -/
def termV (X Y : (⟨S65536x512, .f32⟩ : BufTy).Contents (Elt F)) : (⟨S65536, .f32⟩ : BufTy).Contents (Elt F) :=
  addf (logSigV (Host.negf (col0 X)))
    (Host.reduceAdd (mulf (labels Y) (logSigM X)) (constant S_ .f32 0x00000000#32) reducesTo_S65536x512_S65536_d1 h_S_)

/-- The total of indicator × (1 + row sum). -/
def countS (Y : (⟨S65536x512, .f32⟩ : BufTy).Contents (Elt F)) : (⟨S_, .f32⟩ : BufTy).Contents (Elt F) :=
  Host.reduceAdd (mulf (mask Y) (addf (broadcastInDim S65536 ![] bcast_S_S65536 (constant S_ .f32 0x3F800000#32)) (posCnt Y)))
    (constant S_ .f32 0x00000000#32) reducesTo_S65536_S_d0 h_S_

/-- The total of indicator × per-row term. -/
def numS (X Y : (⟨S65536x512, .f32⟩ : BufTy).Contents (Elt F)) : (⟨S_, .f32⟩ : BufTy).Contents (Elt F) :=
  Host.reduceAdd (mulf (mask Y) (termV X Y)) (constant S_ .f32 0x00000000#32) reducesTo_S65536_S_d0 h_S_

/-- The first loss: minus the second total over the first. -/
def loss1 (X Y : (⟨S65536x512, .f32⟩ : BufTy).Contents (Elt F)) : (⟨S_, .f32⟩ : BufTy).Contents (Elt F) :=
  Host.divf (Host.negf (numS X Y)) (countS Y)

/-- The masked logits: the logits minus the cleared labels times the word of 10³⁰. -/
def logit2 (X Y : (⟨S65536x512, .f32⟩ : BufTy).Contents (Elt F)) : (⟨S65536x512, .f32⟩ : BufTy).Contents (Elt F) :=
  subf X (mulf (labels Y) (broadcastInDim S65536x512 ![] bcast_S_S65536x512 (constant S_ .f32 0x7149F2CA#32)))

/-- The row maxima as the log-softmax takes them: the max-reduce from the word of -∞, then once more the
    maximum with that word. -/
def rowMaxV (Z : (⟨S65536x512, .f32⟩ : BufTy).Contents (Elt F)) : (⟨S65536, .f32⟩ : BufTy).Contents (Elt F) :=
  maximumf (broadcastInDim S65536 ![] bcast_S_S65536 (constant S_ .f32 0xFF800000#32))
    (Host.reduce FloatOps.maximumf Z (constant S_ .f32 0xFF800000#32) reducesTo_S65536x512_S65536_d1 h_S_)

/-- A vector as a column, repeated across the 512 columns. -/
def spread (v : (⟨S65536x1, .f32⟩ : BufTy).Contents (Elt F)) : (⟨S65536x512, .f32⟩ : BufTy).Contents (Elt F) :=
  broadcastInDim S65536x512 ![0, 1] bcast_S65536x1_S65536x512_0_1 v

/-- The logits shifted by their row maximum. -/
def shifted (Z : (⟨S65536x512, .f32⟩ : BufTy).Contents (Elt F)) : (⟨S65536x512, .f32⟩ : BufTy).Contents (Elt F) :=
  subf Z (spread (broadcastInDim S65536x1 ![0] bcast_S65536_S65536x1_0 (rowMaxV Z)))

/-- The row-wise log-softmax. -/
def logSoftmax (Z : (⟨S65536x512, .f32⟩ : BufTy).Contents (Elt F)) : (⟨S65536x512, .f32⟩ : BufTy).Contents (Elt F) :=
  subf (shifted Z)
    (spread (Host.log (broadcastInDim S65536x1 ![0] bcast_S65536_S65536x1_0
      (Host.reduceAdd (Host.exp (shifted Z)) (constant S_ .f32 0x00000000#32) reducesTo_S65536x512_S65536_d1 h_S_))))

/-- Per row: minus column 0 of the log-softmax of the masked logits. -/
def loss2V (X Y : (⟨S65536x512, .f32⟩ : BufTy).Contents (Elt F)) : (⟨S65536, .f32⟩ : BufTy).Contents (Elt F) :=
  Host.negf (col0 (logSoftmax (logit2 X Y)))

/-- The second loss: the total of the rows' losses over the word of 65536. -/
def loss2 (X Y : (⟨S65536x512, .f32⟩ : BufTy).Contents (Elt F)) : (⟨S_, .f32⟩ : BufTy).Contents (Elt F) :=
  Host.divf (Host.reduceAdd (loss2V X Y) (constant S_ .f32 0x00000000#32) reducesTo_S65536_S_d0 h_S_)
    (constant S_ .f32 0x47800000#32)

/-- What the reference leaves in its result buffer, as a function of the two argument arrays. -/
def refTerm (X Y : (⟨S65536x512, .f32⟩ : BufTy).Contents (Elt F)) : (⟨S_, .f32⟩ : BufTy).Contents (Elt F) :=
  addf (loss1 X Y) (loss2 X Y)

end Cert.ReferenceIdeal.RefTerm

end
-- ==== Proof.RefOps.lean ====
/-
  The reference program is a straight line of host operations.

  Once its three module-local functions (the two log-sigmoids, each through a softplus, and the log-softmax)
  are unfolded at their calls, @main is 88 operations in a row.  The line is listed and the program is shown to
  be that line; every buffer the line touches is a TensorCore buffer and none is scoped.
-/
import proofs.«142532_j41180146434453_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 88 operations in order, the calls unfolded: each log-sigmoid is a negation, the softplus's
    fourteen operations, a negation, over that call's buffers; the log-softmax its fifteen. -/
abbrev ops : List (HloOp τ sig (Elt F)) :=
  [
    StableHlo.nullary main_c (constantI S_ 32 0#32),
    StableHlo.unary main_c main_v0 (broadcastInDim S1 ![] bcast_S_S1 : (⟨S_, .i32⟩ : BufTy).Contents (Elt F) → (⟨S1, .i32⟩ : BufTy).Contents (Elt F)),
    StableHlo.nullary main_cst (constant S_ .f32 0x00000000#32),
    StableHlo.unary main_cst main_v1 (broadcastInDim S65536 ![] bcast_S_S65536 : (⟨S_, .f32⟩ : BufTy).Contents (Elt F) → (⟨S65536, .f32⟩ : BufTy).Contents (Elt F)),
    StableHlo.ternary main_arg1 main_v0 main_v1 main_v2 ((fun x i u => Host.scatter scatter_S65536x512_S1_S65536_0_1_1_0 (fun _ b => b) x i u) : (⟨S65536x512, .f32⟩ : BufTy).Contents (Elt F) → (⟨S1, .i32⟩ : BufTy).Contents (Elt F) → (⟨S65536, .f32⟩ : BufTy).Contents (Elt F) → (⟨S65536x512, .f32⟩ : BufTy).Contents (Elt F)),
    StableHlo.nullary main_cst_0 (constant S_ .f32 0x00000000#32),
    StableHlo.binary main_v2 main_cst_0 main_v3 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    StableHlo.nullary main_cst_1 (constant S_ .f32 0x00000000#32),
    StableHlo.unary main_cst_1 main_v4 (broadcastInDim S65536 ![] bcast_S_S65536 : (⟨S_, .f32⟩ : BufTy).Contents (Elt F) → (⟨S65536, .f32⟩ : BufTy).Contents (Elt F)),
    StableHlo.binary main_v3 main_v4 main_v5 (cmpf .ogt : (⟨S65536, .f32⟩ : BufTy).Contents (Elt F) → (⟨S65536, .f32⟩ : BufTy).Contents (Elt F) → (⟨S65536, .i1⟩ : BufTy).Contents (Elt F)),
    StableHlo.unary main_v5 main_v6 (uitofp .f32 : (⟨S65536, .i1⟩ : BufTy).Contents (Elt F) → (⟨S65536, .f32⟩ : BufTy).Contents (Elt F)),
    StableHlo.unary main_arg0 main_v7 ((extractStridedSlice S65536x1 ![0, 0] · slices_S65536x512_S65536x1_0_0) : (⟨S65536x512, .f32⟩ : BufTy).Contents (Elt F) → (⟨S65536x1, .f32⟩ : BufTy).Contents (Elt F)),
    StableHlo.reshape main_v7 main_v8 rfl shapeCasts_S65536x1_S65536,
    StableHlo.unary main_v8 main_v9 (Host.negf : (⟨S65536, .f32⟩ : BufTy).Contents (Elt F) → (⟨S65536, .f32⟩ : BufTy).Contents (Elt F)),
    StableHlo.TRef.unary (.of main_v9 : TRef sig ⟨S65536, .f32⟩) main_call0.v0 Host.negf,
    StableHlo.TRef.nullary main_call0.call0.cst (constant S_ .f32 0x00000000#32),
    StableHlo.TRef.unary main_call0.call0.cst main_call0.call0.v0 (broadcastInDim S65536 ![] bcast_S_S65536),
    StableHlo.TRef.binary main_call0.v0 main_call0.call0.v0 main_call0.call0.v1 maximumf,
    StableHlo.TRef.unary main_call0.call0.cst main_call0.call0.v2 (broadcastInDim S65536 ![] bcast_S_S65536),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S65536 ![] bcast_S_S65536),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.TRef.unary (.of main_arg0 : TRef sig ⟨S65536x512, .f32⟩) main_call1.v0 Host.negf,
    StableHlo.TRef.nullary main_call1.call0.cst (constant S_ .f32 0x00000000#32),
    StableHlo.TRef.unary main_call1.call0.cst main_call1.call0.v0 (broadcastInDim S65536x512 ![] bcast_S_S65536x512),
    StableHlo.TRef.binary main_call1.v0 main_call1.call0.v0 main_call1.call0.v1 maximumf,
    StableHlo.TRef.unary main_call1.call0.cst main_call1.call0.v2 (broadcastInDim S65536x512 ![] bcast_S_S65536x512),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S65536x512 ![] bcast_S_S65536x512),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.binary main_v2 main_v11 main_v12 (mulf : (⟨S65536x512, .f32⟩ : BufTy).Contents (Elt F) → (⟨S65536x512, .f32⟩ : BufTy).Contents (Elt F) → (⟨S65536x512, .f32⟩ : BufTy).Contents (Elt F)),
    StableHlo.nullary main_cst_2 (constant S_ .f32 0x00000000#32),
    StableHlo.binary main_v12 main_cst_2 main_v13 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    StableHlo.binary main_v10 main_v13 main_v14 (addf : (⟨S65536, .f32⟩ : BufTy).Contents (Elt F) → (⟨S65536, .f32⟩ : BufTy).Contents (Elt F) → (⟨S65536, .f32⟩ : BufTy).Contents (Elt F)),
    StableHlo.nullary main_cst_3 (constant S_ .f32 0x3F800000#32),
    StableHlo.unary main_cst_3 main_v15 (broadcastInDim S65536 ![] bcast_S_S65536 : (⟨S_, .f32⟩ : BufTy).Contents (Elt F) → (⟨S65536, .f32⟩ : BufTy).Contents (Elt F)),
    StableHlo.binary main_v15 main_v3 main_v16 (addf : (⟨S65536, .f32⟩ : BufTy).Contents (Elt F) → (⟨S65536, .f32⟩ : BufTy).Contents (Elt F) → (⟨S65536, .f32⟩ : BufTy).Contents (Elt F)),
    StableHlo.binary main_v6 main_v16 main_v17 (mulf : (⟨S65536, .f32⟩ : BufTy).Contents (Elt F) → (⟨S65536, .f32⟩ : BufTy).Contents (Elt F) → (⟨S65536, .f32⟩ : BufTy).Contents (Elt F)),
    StableHlo.nullary main_cst_4 (constant S_ .f32 0x00000000#32),
    StableHlo.binary main_v17 main_cst_4 main_v18 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    StableHlo.binary main_v6 main_v14 main_v19 (mulf : (⟨S65536, .f32⟩ : BufTy).Contents (Elt F) → (⟨S65536, .f32⟩ : BufTy).Contents (Elt F) → (⟨S65536, .f32⟩ : BufTy).Contents (Elt F)),
    StableHlo.nullary main_cst_5 (constant S_ .f32 0x00000000#32),
    StableHlo.binary main_v19 main_cst_5 main_v20 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    StableHlo.unary main_v20 main_v21 (Host.negf : (⟨S_, .f32⟩ : BufTy).Contents (Elt F) → (⟨S_, .f32⟩ : BufTy).Contents (Elt F)),
    StableHlo.binary main_v21 main_v18 main_v22 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x7149F2CA#32),
    StableHlo.unary main_cst_6 main_v23 (broadcastInDim S65536x512 ![] bcast_S_S65536x512 : (⟨S_, .f32⟩ : BufTy).Contents (Elt F) → (⟨S65536x512, .f32⟩ : BufTy).Contents (Elt F)),
    StableHlo.binary main_v2 main_v23 main_v24 (mulf : (⟨S65536x512, .f32⟩ : BufTy).Contents (Elt F) → (⟨S65536x512, .f32⟩ : BufTy).Contents (Elt F) → (⟨S65536x512, .f32⟩ : BufTy).Contents (Elt F)),
    StableHlo.binary main_arg0 main_v24 main_v25 (subf : (⟨S65536x512, .f32⟩ : BufTy).Contents (Elt F) → (⟨S65536x512, .f32⟩ : BufTy).Contents (Elt F) → (⟨S65536x512, .f32⟩ : BufTy).Contents (Elt F)),
    StableHlo.TRef.nullary main_call2.cst (constant S_ .f32 0xFF800000#32),
    StableHlo.TRef.binary (.of main_v25 : TRef sig ⟨S65536x512, .f32⟩) main_call2.cst main_call2.v0 (fun x v => Host.reduce FloatOps.maximumf x v reducesTo_S65536x512_S65536_d1 h_S_),
    StableHlo.TRef.nullary main_call2.cst_0 (constant S_ .f32 0xFF800000#32),
    StableHlo.TRef.unary main_call2.cst_0 main_call2.v1 (broadcastInDim S65536 ![] bcast_S_S65536),
    StableHlo.TRef.binary main_call2.v1 main_call2.v0 main_call2.v2 maximumf,
    StableHlo.TRef.unary main_call2.v2 main_call2.v3 (broadcastInDim S65536x1 ![0] bcast_S65536_S65536x1_0),
    StableHlo.TRef.unary main_call2.v3 main_call2.v4 (broadcastInDim S65536x512 ![0, 1] bcast_S65536x1_S65536x512_0_1),
    StableHlo.TRef.binary (.of main_v25 : TRef sig ⟨S65536x512, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S65536x512_S65536_d1 h_S_),
    StableHlo.TRef.unary main_call2.v7 main_call2.v8 (broadcastInDim S65536x1 ![0] bcast_S65536_S65536x1_0),
    StableHlo.TRef.unary main_call2.v8 main_call2.v9 Host.log,
    StableHlo.TRef.unary main_call2.v9 main_call2.v10 (broadcastInDim S65536x512 ![0, 1] bcast_S65536x1_S65536x512_0_1),
    StableHlo.TRef.binary main_call2.v5 main_call2.v10 main_call2.v11 subf,
    StableHlo.unary main_v26 main_v27 ((extractStridedSlice S65536x1 ![0, 0] · slices_S65536x512_S65536x1_0_0) : (⟨S65536x512, .f32⟩ : BufTy).Contents (Elt F) → (⟨S65536x1, .f32⟩ : BufTy).Contents (Elt F)),
    StableHlo.reshape main_v27 main_v28 rfl shapeCasts_S65536x1_S65536,
    StableHlo.unary main_v28 main_v29 (Host.negf : (⟨S65536, .f32⟩ : BufTy).Contents (Elt F) → (⟨S65536, .f32⟩ : BufTy).Contents (Elt F)),
    StableHlo.nullary main_cst_7 (constant S_ .f32 0x00000000#32),
    StableHlo.binary main_v29 main_cst_7 main_v30 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    StableHlo.nullary main_cst_8 (constant S_ .f32 0x47800000#32),
    StableHlo.binary main_v30 main_cst_8 main_v31 (Host.divf : (⟨S_, .f32⟩ : BufTy).Contents (Elt F) → (⟨S_, .f32⟩ : BufTy).Contents (Elt F) → (⟨S_, .f32⟩ : BufTy).Contents (Elt F)),
    StableHlo.binary main_v22 main_v31 main_v32 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that line: the functions unfolded at their calls and sequencing reassociated. -/
theorem main_eq (c : Dev nD) : main (F := F) c = seq ops := by
  simp only [main, fn_log_sigmoid.body, fn_softplus.body, fn_log_sigmoid_0.body, fn_softplus_1.body, fn_log_softmax.body,
    seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., nullary_bufs_sub .., unary_bufs_sub .., ternary_bufs_sub .., nullary_bufs_sub ..,
    binary_bufs_sub .., nullary_bufs_sub .., unary_bufs_sub .., binary_bufs_sub .., unary_bufs_sub .., unary_bufs_sub ..,
    reshape_bufs_sub .., unary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub .., binary_bufs_sub .., nullary_bufs_sub ..,
    binary_bufs_sub .., binary_bufs_sub .., nullary_bufs_sub .., unary_bufs_sub .., binary_bufs_sub .., binary_bufs_sub ..,
    nullary_bufs_sub .., binary_bufs_sub .., binary_bufs_sub .., nullary_bufs_sub .., binary_bufs_sub .., unary_bufs_sub ..,
    binary_bufs_sub .., nullary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    unary_bufs_sub .., binary_bufs_sub .., unary_bufs_sub .., reshape_bufs_sub .., unary_bufs_sub .., nullary_bufs_sub ..,
    binary_bufs_sub .., nullary_bufs_sub .., binary_bufs_sub .., binary_bufs_sub ..⟩

end Cert.ReferenceIdeal.RefOps

end
-- ==== Proof.LibAfterAppend.lean ====
/-
  A general fact about a straight line of host operations, for any signature and any value type.

  * after_append: the buffer contents after two lines of operations run one after the other are the
    contents after the second line, started from the contents after the first.  It lets a long program be
    read one stretch at a time: the contents at a cut are a valuation like any other.
  * forall_append, forall_cons: a property of every operation of a joined line from the property of the
    parts (the side conditions of a run are stated over the whole line).
-/
import Idealize.ShloMosaic.Lib.StableHlo.Run

namespace Cert.Lib.AfterAppend

open Idealize.ShloMosaic Idealize.ShloMosaic.StableHlo

variable {τ : Topo} {sig : RefSig} {Val : EltTy → Type}

/-- The contents after a joined line are the contents after its second part, from the contents after its first. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A property of every element of a joined list, from the property of each part. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- A property of every element of a list with one more element in front. -/
theorem forall_cons {α : Type} {p : α → Prop} {a : α} {l : List α} (ha : p a) (hl : l.Forall p) :
    (a :: l).Forall p :=
  List.forall_iff_forall_mem.mpr fun x hx =>
    (List.mem_cons.mp hx).elim (fun e => e ▸ ha) (List.forall_iff_forall_mem.mp hl x)

end Cert.Lib.AfterAppend
-- ==== Proof.RefRun.lean ====
/-
  The reference program's run, read at its result buffer.

  The 88 operations are cut into six stretches: the label clearing, row sums, indicator and column 0; the
  log-sigmoid of a vector; the log-sigmoid of an array; the two weighted totals, their quotient and the masked
  logits; the log-softmax; the last column read, total, quotient and sum.  Each stretch is read over an
  arbitrary valuation at the few buffers later stretches use, and the readings are chained: the result buffer
  after the whole line is `refTerm` of the two arguments' contents.  With the program being that line, every
  weakly fair execution ends with the result buffer at `refTerm` of the launch contents and the arguments
  unchanged.
-/
import proofs.«142532_j41180146434453_2_alg».proof.Proof.RefTerm
import proofs.«142532_j41180146434453_2_alg».proof.Proof.RefOps
import proofs.«142532_j41180146434453_2_alg».proof.Proof.LibAfterAppend

set_option maxRecDepth 16384

noncomputable section

namespace Cert.ReferenceIdeal.RefRun

open Cert.ReferenceIdeal Cert.ReferenceIdeal.Gen Cert.ReferenceIdeal.RefTerm Cert.ReferenceIdeal.RefOps Idealize.ShloMosaic Idealize.ShloMosaic.TcCoe Idealize.SL.Sem Idealize.ShloMosaic.StableHlo
open Cert.Lib.AfterAppend (after_append)

variable {F : FTy → Type} [FloatOps F]

/-! ## The six stretches -/

/-- The labels' column 0 cleared, the row sums, the indicator, and minus column 0 of the logits. -/
abbrev s1 : List (HloOp τ sig (Elt F)) :=
  [
    StableHlo.nullary main_c (constantI S_ 32 0#32),
    StableHlo.unary main_c main_v0 (broadcastInDim S1 ![] bcast_S_S1 : (⟨S_, .i32⟩ : BufTy).Contents (Elt F) → (⟨S1, .i32⟩ : BufTy).Contents (Elt F)),
    StableHlo.nullary main_cst (constant S_ .f32 0x00000000#32),
    StableHlo.unary main_cst main_v1 (broadcastInDim S65536 ![] bcast_S_S65536 : (⟨S_, .f32⟩ : BufTy).Contents (Elt F) → (⟨S65536, .f32⟩ : BufTy).Contents (Elt F)),
    StableHlo.ternary main_arg1 main_v0 main_v1 main_v2 ((fun x i u => Host.scatter scatter_S65536x512_S1_S65536_0_1_1_0 (fun _ b => b) x i u) : (⟨S65536x512, .f32⟩ : BufTy).Contents (Elt F) → (⟨S1, .i32⟩ : BufTy).Contents (Elt F) → (⟨S65536, .f32⟩ : BufTy).Contents (Elt F) → (⟨S65536x512, .f32⟩ : BufTy).Contents (Elt F)),
    StableHlo.nullary main_cst_0 (constant S_ .f32 0x00000000#32),
    StableHlo.binary main_v2 main_cst_0 main_v3 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    StableHlo.nullary main_cst_1 (constant S_ .f32 0x00000000#32),
    StableHlo.unary main_cst_1 main_v4 (broadcastInDim S65536 ![] bcast_S_S65536 : (⟨S_, .f32⟩ : BufTy).Contents (Elt F) → (⟨S65536, .f32⟩ : BufTy).Contents (Elt F)),
    StableHlo.binary main_v3 main_v4 main_v5 (cmpf .ogt : (⟨S65536, .f32⟩ : BufTy).Contents (Elt F) → (⟨S65536, .f32⟩ : BufTy).Contents (Elt F) → (⟨S65536, .i1⟩ : BufTy).Contents (Elt F)),
    StableHlo.unary main_v5 main_v6 (uitofp .f32 : (⟨S65536, .i1⟩ : BufTy).Contents (Elt F) → (⟨S65536, .f32⟩ : BufTy).Contents (Elt F)),
    StableHlo.unary main_arg0 main_v7 ((extractStridedSlice S65536x1 ![0, 0] · slices_S65536x512_S65536x1_0_0) : (⟨S65536x512, .f32⟩ : BufTy).Contents (Elt F) → (⟨S65536x1, .f32⟩ : BufTy).Contents (Elt F)),
    StableHlo.reshape main_v7 main_v8 rfl shapeCasts_S65536x1_S65536,
    StableHlo.unary main_v8 main_v9 (Host.negf : (⟨S65536, .f32⟩ : BufTy).Contents (Elt F) → (⟨S65536, .f32⟩ : BufTy).Contents (Elt F)) ]

/-- The log-sigmoid of a vector. -/
abbrev s2 : List (HloOp τ sig (Elt F)) :=
  [
    StableHlo.TRef.unary (.of main_v9 : TRef sig ⟨S65536, .f32⟩) main_call0.v0 Host.negf,
    StableHlo.TRef.nullary main_call0.call0.cst (constant S_ .f32 0x00000000#32),
    StableHlo.TRef.unary main_call0.call0.cst main_call0.call0.v0 (broadcastInDim S65536 ![] bcast_S_S65536),
    StableHlo.TRef.binary main_call0.v0 main_call0.call0.v0 main_call0.call0.v1 maximumf,
    StableHlo.TRef.unary main_call0.call0.cst main_call0.call0.v2 (broadcastInDim S65536 ![] bcast_S_S65536),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S65536 ![] bcast_S_S65536),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf ]

/-- The log-sigmoid of an array. -/
abbrev s3 : List (HloOp τ sig (Elt F)) :=
  [
    StableHlo.TRef.unary (.of main_arg0 : TRef sig ⟨S65536x512, .f32⟩) main_call1.v0 Host.negf,
    StableHlo.TRef.nullary main_call1.call0.cst (constant S_ .f32 0x00000000#32),
    StableHlo.TRef.unary main_call1.call0.cst main_call1.call0.v0 (broadcastInDim S65536x512 ![] bcast_S_S65536x512),
    StableHlo.TRef.binary main_call1.v0 main_call1.call0.v0 main_call1.call0.v1 maximumf,
    StableHlo.TRef.unary main_call1.call0.cst main_call1.call0.v2 (broadcastInDim S65536x512 ![] bcast_S_S65536x512),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S65536x512 ![] bcast_S_S65536x512),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf ]

/-- The two weighted totals, their quotient, and the masked logits. -/
abbrev s4 : List (HloOp τ sig (Elt F)) :=
  [
    StableHlo.binary main_v2 main_v11 main_v12 (mulf : (⟨S65536x512, .f32⟩ : BufTy).Contents (Elt F) → (⟨S65536x512, .f32⟩ : BufTy).Contents (Elt F) → (⟨S65536x512, .f32⟩ : BufTy).Contents (Elt F)),
    StableHlo.nullary main_cst_2 (constant S_ .f32 0x00000000#32),
    StableHlo.binary main_v12 main_cst_2 main_v13 ((fun x v => Host.reduceAdd x v reducesTo_S65536x512_S65536_d1 h_S_) : (⟨S65536x512, .f32⟩ : BufTy).Contents (Elt F) → (⟨S_, .f32⟩ : BufTy).Contents (Elt F) → (⟨S65536, .f32⟩ : BufTy).Contents (Elt F)),
    StableHlo.binary main_v10 main_v13 main_v14 (addf : (⟨S65536, .f32⟩ : BufTy).Contents (Elt F) → (⟨S65536, .f32⟩ : BufTy).Contents (Elt F) → (⟨S65536, .f32⟩ : BufTy).Contents (Elt F)),
    StableHlo.nullary main_cst_3 (constant S_ .f32 0x3F800000#32),
    StableHlo.unary main_cst_3 main_v15 (broadcastInDim S65536 ![] bcast_S_S65536 : (⟨S_, .f32⟩ : BufTy).Contents (Elt F) → (⟨S65536, .f32⟩ : BufTy).Contents (Elt F)),
    StableHlo.binary main_v15 main_v3 main_v16 (addf : (⟨S65536, .f32⟩ : BufTy).Contents (Elt F) → (⟨S65536, .f32⟩ : BufTy).Contents (Elt F) → (⟨S65536, .f32⟩ : BufTy).Contents (Elt F)),
    StableHlo.binary main_v6 main_v16 main_v17 (mulf : (⟨S65536, .f32⟩ : BufTy).Contents (Elt F) → (⟨S65536, .f32⟩ : BufTy).Contents (Elt F) → (⟨S65536, .f32⟩ : BufTy).Contents (Elt F)),
    StableHlo.nullary main_cst_4 (constant S_ .f32 0x00000000#32),
    StableHlo.binary main_v17 main_cst_4 main_v18 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    StableHlo.binary main_v6 main_v14 main_v19 (mulf : (⟨S65536, .f32⟩ : BufTy).Contents (Elt F) → (⟨S65536, .f32⟩ : BufTy).Contents (Elt F) → (⟨S65536, .f32⟩ : BufTy).Contents (Elt F)),
    StableHlo.nullary main_cst_5 (constant S_ .f32 0x00000000#32),
    StableHlo.binary main_v19 main_cst_5 main_v20 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    StableHlo.unary main_v20 main_v21 (Host.negf : (⟨S_, .f32⟩ : BufTy).Contents (Elt F) → (⟨S_, .f32⟩ : BufTy).Contents (Elt F)),
    StableHlo.binary main_v21 main_v18 main_v22 (Host.divf : (⟨S_, .f32⟩ : BufTy).Contents (Elt F) → (⟨S_, .f32⟩ : BufTy).Contents (Elt F) → (⟨S_, .f32⟩ : BufTy).Contents (Elt F)),
    StableHlo.nullary main_cst_6 (constant S_ .f32 0x7149F2CA#32),
    StableHlo.unary main_cst_6 main_v23 (broadcastInDim S65536x512 ![] bcast_S_S65536x512 : (⟨S_, .f32⟩ : BufTy).Contents (Elt F) → (⟨S65536x512, .f32⟩ : BufTy).Contents (Elt F)),
    StableHlo.binary main_v2 main_v23 main_v24 (mulf : (⟨S65536x512, .f32⟩ : BufTy).Contents (Elt F) → (⟨S65536x512, .f32⟩ : BufTy).Contents (Elt F) → (⟨S65536x512, .f32⟩ : BufTy).Contents (Elt F)),
    StableHlo.binary main_arg0 main_v24 main_v25 (subf : (⟨S65536x512, .f32⟩ : BufTy).Contents (Elt F) → (⟨S65536x512, .f32⟩ : BufTy).Contents (Elt F) → (⟨S65536x512, .f32⟩ : BufTy).Contents (Elt F)) ]

/-- The row-wise log-softmax. -/
abbrev s5 : List (HloOp τ sig (Elt F)) :=
  [
    StableHlo.TRef.nullary main_call2.cst (constant S_ .f32 0xFF800000#32),
    StableHlo.TRef.binary (.of main_v25 : TRef sig ⟨S65536x512, .f32⟩) main_call2.cst main_call2.v0 (fun x v => Host.reduce FloatOps.maximumf x v reducesTo_S65536x512_S65536_d1 h_S_),
    StableHlo.TRef.nullary main_call2.cst_0 (constant S_ .f32 0xFF800000#32),
    StableHlo.TRef.unary main_call2.cst_0 main_call2.v1 (broadcastInDim S65536 ![] bcast_S_S65536),
    StableHlo.TRef.binary main_call2.v1 main_call2.v0 main_call2.v2 maximumf,
    StableHlo.TRef.unary main_call2.v2 main_call2.v3 (broadcastInDim S65536x1 ![0] bcast_S65536_S65536x1_0),
    StableHlo.TRef.unary main_call2.v3 main_call2.v4 (broadcastInDim S65536x512 ![0, 1] bcast_S65536x1_S65536x512_0_1),
    StableHlo.TRef.binary (.of main_v25 : TRef sig ⟨S65536x512, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S65536x512_S65536_d1 h_S_),
    StableHlo.TRef.unary main_call2.v7 main_call2.v8 (broadcastInDim S65536x1 ![0] bcast_S65536_S65536x1_0),
    StableHlo.TRef.unary main_call2.v8 main_call2.v9 Host.log,
    StableHlo.TRef.unary main_call2.v9 main_call2.v10 (broadcastInDim S65536x512 ![0, 1] bcast_S65536x1_S65536x512_0_1),
    StableHlo.TRef.binary main_call2.v5 main_call2.v10 main_call2.v11 subf ]

/-- Column 0 negated, summed, divided by the number of rows, and added to the first loss. -/
abbrev s6 : List (HloOp τ sig (Elt F)) :=
  [
    StableHlo.unary main_v26 main_v27 ((extractStridedSlice S65536x1 ![0, 0] · slices_S65536x512_S65536x1_0_0) : (⟨S65536x512, .f32⟩ : BufTy).Contents (Elt F) → (⟨S65536x1, .f32⟩ : BufTy).Contents (Elt F)),
    StableHlo.reshape main_v27 main_v28 rfl shapeCasts_S65536x1_S65536,
    StableHlo.unary main_v28 main_v29 (Host.negf : (⟨S65536, .f32⟩ : BufTy).Contents (Elt F) → (⟨S65536, .f32⟩ : BufTy).Contents (Elt F)),
    StableHlo.nullary main_cst_7 (constant S_ .f32 0x00000000#32),
    StableHlo.binary main_v29 main_cst_7 main_v30 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    StableHlo.nullary main_cst_8 (constant S_ .f32 0x47800000#32),
    StableHlo.binary main_v30 main_cst_8 main_v31 (Host.divf : (⟨S_, .f32⟩ : BufTy).Contents (Elt F) → (⟨S_, .f32⟩ : BufTy).Contents (Elt F) → (⟨S_, .f32⟩ : BufTy).Contents (Elt F)),
    StableHlo.binary main_v22 main_v31 main_v32 (addf : (⟨S_, .f32⟩ : BufTy).Contents (Elt F) → (⟨S_, .f32⟩ : BufTy).Contents (Elt F) → (⟨S_, .f32⟩ : BufTy).Contents (Elt F)) ]

/-- The line is the six stretches in a row. -/
theorem ops_eq : (ops : List (HloOp τ sig (Elt F))) = s1 ++ (s2 ++ (s3 ++ (s4 ++ (s5 ++ s6)))) := rfl

/-! ## Each stretch read at the buffers the later ones use -/

/-- A typed reference's two transports undo each other. -/
theorem ofBuf_toBuf {sg : RefSig} {Val : EltTy → Type} {T : BufTy} (x : TRef sg T) (v : T.Contents Val) :
    x.ofBuf (x.toBuf v) = v := by
  obtain ⟨ref, hty, hd, hs⟩ := x
  subst hty
  rfl

theorem s1_arg0 (W : Valuation τ sig (Elt F)) :
    after s1 W (main_arg0 : DevRef τ sig) = W (main_arg0 : DevRef τ sig) := by
  after_results_simp

attribute [local irreducible] Host.reduce Host.reduceAdd Host.scatter in
theorem s1_v2 (W : Valuation τ sig (Elt F)) :
    after s1 W (main_v2 : DevRef τ sig) = labels (W (main_arg1 : DevRef τ sig)) := by
  after_results_simp
  all_goals (try simp only [ofBuf_toBuf])
  all_goals rfl

attribute [local irreducible] Host.reduce Host.reduceAdd Host.scatter in
theorem s1_v3 (W : Valuation τ sig (Elt F)) :
    after s1 W (main_v3 : DevRef τ sig) = posCnt (W (main_arg1 : DevRef τ sig)) := by
  after_results_simp
  all_goals (try simp only [ofBuf_toBuf])
  all_goals rfl

attribute [local irreducible] Host.reduce Host.reduceAdd Host.scatter in
theorem s1_v6 (W : Valuation τ sig (Elt F)) :
    after s1 W (main_v6 : DevRef τ sig) = mask (W (main_arg1 : DevRef τ sig)) := by
  after_results_simp
  all_goals (try simp only [ofBuf_toBuf])
  all_goals rfl

attribute [local irreducible] Host.reduce Host.reduceAdd Host.scatter in
theorem s1_v9 (W : Valuation τ sig (Elt F)) :
    after s1 W (main_v9 : DevRef τ sig) = Host.negf (col0 (W (main_arg0 : DevRef τ sig))) := by
  after_results_simp
  all_goals (try simp only [ofBuf_toBuf])
  all_goals rfl

theorem s2_arg0 (W : Valuation τ sig (Elt F)) :
    after s2 W (main_arg0 : DevRef τ sig) = W (main_arg0 : DevRef τ sig) := by
  after_results_simp

theorem s2_v2 (W : Valuation τ sig (Elt F)) :
    after s2 W (main_v2 : DevRef τ sig) = W (main_v2 : DevRef τ sig) := by
  after_results_simp

theorem s2_v3 (W : Valuation τ sig (Elt F)) :
    after s2 W (main_v3 : DevRef τ sig) = W (main_v3 : DevRef τ sig) := by
  after_results_simp

theorem s2_v6 (W : Valuation τ sig (Elt F)) :
    after s2 W (main_v6 : DevRef τ sig) = W (main_v6 : DevRef τ sig) := by
  after_results_simp

attribute [local irreducible] Host.reduce Host.reduceAdd Host.scatter in
theorem s2_v10 (W : Valuation τ sig (Elt F)) :
    after s2 W (main_v10 : DevRef τ sig) = logSigV (W (main_v9 : DevRef τ sig)) := by
  after_results_simp
  all_goals (try simp only [ofBuf_toBuf])
  all_goals rfl

theorem s3_arg0 (W : Valuation τ sig (Elt F)) :
    after s3 W (main_arg0 : DevRef τ sig) = W (main_arg0 : DevRef τ sig) := by
  after_results_simp

theorem s3_v2 (W : Valuation τ sig (Elt F)) :
    after s3 W (main_v2 : DevRef τ sig) = W (main_v2 : DevRef τ sig) := by
  after_results_simp

theorem s3_v3 (W : Valuation τ sig (Elt F)) :
    after s3 W (main_v3 : DevRef τ sig) = W (main_v3 : DevRef τ sig) := by
  after_results_simp

theorem s3_v6 (W : Valuation τ sig (Elt F)) :
    after s3 W (main_v6 : DevRef τ sig) = W (main_v6 : DevRef τ sig) := by
  after_results_simp

theorem s3_v10 (W : Valuation τ sig (Elt F)) :
    after s3 W (main_v10 : DevRef τ sig) = W (main_v10 : DevRef τ sig) := by
  after_results_simp

attribute [local irreducible] Host.reduce Host.reduceAdd Host.scatter in
theorem s3_v11 (W : Valuation τ sig (Elt F)) :
    after s3 W (main_v11 : DevRef τ sig) = logSigM (W (main_arg0 : DevRef τ sig)) := by
  after_results_simp
  all_goals (try simp only [ofBuf_toBuf])
  all_goals rfl

attribute [local irreducible] Host.reduce Host.reduceAdd Host.scatter in
theorem s4_v22 (W : Valuation τ sig (Elt F)) :
    after s4 W (main_v22 : DevRef τ sig) = Host.divf
        (Host.negf (Host.reduceAdd (mulf (W (main_v6 : DevRef τ sig))
          (addf (W (main_v10 : DevRef τ sig)) (Host.reduceAdd (mulf (W (main_v2 : DevRef τ sig)) (W (main_v11 : DevRef τ sig))) (constant S_ .f32 0x00000000#32) reducesTo_S65536x512_S65536_d1 h_S_)))
          (constant S_ .f32 0x00000000#32) reducesTo_S65536_S_d0 h_S_))
        (Host.reduceAdd (mulf (W (main_v6 : DevRef τ sig))
          (addf (broadcastInDim S65536 ![] bcast_S_S65536 (constant S_ .f32 0x3F800000#32)) (W (main_v3 : DevRef τ sig))))
          (constant S_ .f32 0x00000000#32) reducesTo_S65536_S_d0 h_S_) := by
  after_results_simp
  all_goals (try simp only [ofBuf_toBuf])
  all_goals rfl

attribute [local irreducible] Host.reduce Host.reduceAdd Host.scatter in
theorem s4_v25 (W : Valuation τ sig (Elt F)) :
    after s4 W (main_v25 : DevRef τ sig) = subf (W (main_arg0 : DevRef τ sig)) (mulf (W (main_v2 : DevRef τ sig)) (broadcastInDim S65536x512 ![] bcast_S_S65536x512 (constant S_ .f32 0x7149F2CA#32))) := by
  after_results_simp
  all_goals (try simp only [ofBuf_toBuf])
  all_goals rfl

theorem s5_v22 (W : Valuation τ sig (Elt F)) :
    after s5 W (main_v22 : DevRef τ sig) = W (main_v22 : DevRef τ sig) := by
  after_results_simp

attribute [local irreducible] Host.reduce Host.reduceAdd Host.scatter in
theorem s5_v26 (W : Valuation τ sig (Elt F)) :
    after s5 W (main_v26 : DevRef τ sig) = logSoftmax (W (main_v25 : DevRef τ sig)) := by
  after_results_simp
  all_goals (try simp only [ofBuf_toBuf])
  all_goals rfl

attribute [local irreducible] Host.reduce Host.reduceAdd Host.scatter in
theorem s6_v32 (W : Valuation τ sig (Elt F)) :
    after s6 W (main_v32 : DevRef τ sig) = addf (W (main_v22 : DevRef τ sig))
        (Host.divf (Host.reduceAdd (Host.negf (col0 (W (main_v26 : DevRef τ sig)))) (constant S_ .f32 0x00000000#32) reducesTo_S65536_S_d0 h_S_)
          (constant S_ .f32 0x47800000#32)) := by
  after_results_simp
  all_goals (try simp only [ofBuf_toBuf])
  all_goals rfl

/-! ## The whole line -/

/-- The result buffer after the line is `refTerm` of the two arguments' contents. -/
theorem res_eq (V : Valuation τ sig (Elt F)) :
    after ops V (main_v32 : DevRef τ sig) = refTerm (V (main_arg0 : DevRef τ sig)) (V (main_arg1 : DevRef τ sig)) := by
  rw [ops_eq, after_append, after_append, after_append, after_append, after_append]
  rw [s6_v32, s5_v22, s5_v26, s4_v22, s4_v25, s3_v6, s3_v10, s3_v2, s3_v11, s3_v3, s3_arg0, s2_v6, s2_v10, s2_v2, s2_v3,
    s2_arg0, s1_v6, s1_v9, s1_v2, s1_v3, s1_arg0]
  rfl

set_option maxHeartbeats 1000000 in
/-- No operation writes the first argument's buffer. -/
theorem arg0_eq (V : Valuation τ sig (Elt F)) :
    after ops V (main_arg0 : DevRef τ sig) = V (main_arg0 : DevRef τ sig) := by
  after_results_simp

set_option maxHeartbeats 1000000 in
/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of
    @main terminates with the result buffer at `refTerm` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v32).trans (res_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.LibScatterSet.lean ====
/-
  Reading a replacing scatter at an index.

  A scatter whose body returns the update (`x.at[idx].set(upd)`) is a left fold, over the update indices in
  row-major order, of the step "overwrite the element the update lands on, when it lands inside".  When
  every update lands inside and no two updates land on the same element, the order of the fold does not
  matter: an element some update lands on holds that update, every other element holds the operand's.
  The two facts are first proved for a fold of such overwriting steps over an arbitrary list, then
  specialised to the row-major list of update indices.
-/
import Idealize.ShloMosaic.PureOps.ShapeOps

namespace Idealize.ShloMosaic.ScatterSet

section Fold
variable {ι β α : Type} [DecidableEq β]

/-- One overwriting step: item `n` lands on `land n` (or nowhere) and carries the value `val n`; the
    step replaces the element it lands on and keeps every other element. -/
def step (land : ι → Option β) (val : ι → α) (r : β → α) (n : ι) : β → α :=
  match land n with
  | some i => fun i' => if i' = i then val n else r i'
  | none => r

/-- A step whose item does not land on `i` keeps the element at `i`. -/
theorem step_of_ne (land : ι → Option β) (val : ι → α) (r : β → α) (n : ι) (i : β) (h : land n ≠ some i) :
    step land val r n i = r i := by
  unfold step
  cases hn : land n with
  | none => rfl
  | some k =>
    have hik : i ≠ k := fun e => h (by rw [hn, e])
    exact if_neg hik

/-- A step whose item lands on `i` leaves the item's value at `i`. -/
theorem step_of_eq (land : ι → Option β) (val : ι → α) (r : β → α) (n : ι) (i : β) (h : land n = some i) :
    step land val r n i = val n := by
  unfold step
  rw [h]
  exact if_pos rfl

/-- If no item of the list lands on `i`, folding the steps over the list keeps the element at `i`. -/
theorem foldl_step_miss (land : ι → Option β) (val : ι → α) (i : β) :
    ∀ (l : List ι) (r : β → α), (∀ n ∈ l, land n ≠ some i) → l.foldl (step land val) r i = r i
  | [], _, _ => rfl
  | n :: l, r, h => by
    rw [List.foldl_cons, foldl_step_miss land val i l _ fun m hm => h m (List.mem_cons_of_mem _ hm)]
    exact step_of_ne land val r n i (h n List.mem_cons_self)

/-- If the list has no repeated item, `n0` is in it and lands on `i`, and no other item of the list lands on
    `i`, then after folding the steps over the list the element at `i` is the value `n0` carries. -/
theorem foldl_step_hit (land : ι → Option β) (val : ι → α) (i : β) (n0 : ι) (h0 : land n0 = some i) :
    ∀ (l : List ι) (r : β → α), l.Nodup → n0 ∈ l → (∀ n ∈ l, land n = some i → n = n0) →
      l.foldl (step land val) r i = val n0
  | [], _, _, hm, _ => absurd hm List.not_mem_nil
  | n :: l, r, hnd, hm, huniq => by
    rw [List.foldl_cons]
    have hnd' := List.nodup_cons.1 hnd
    by_cases hn : n = n0
    · subst hn
      rw [foldl_step_miss land val i l _ fun m hml e => hnd'.1 (huniq m (List.mem_cons_of_mem _ hml) e ▸ hml)]
      exact step_of_eq land val r n i h0
    · have hm' : n0 ∈ l := by
        rcases List.mem_cons.1 hm with e | e
        · exact absurd e.symm hn
        · exact e
      exact foldl_step_hit land val i n0 h0 l _ hnd'.2 hm' fun m hml => huniq m (List.mem_cons_of_mem _ hml)

end Fold

section Scatter
variable {s si u : Shape} {α : Type} {w : Nat}

/-- The replacing scatter is the fold of overwriting steps over the update indices in row-major order,
    item `n` landing where `resultIdx?` sends the `n`-th update index and carrying that update. -/
theorem scatter_set_eq_foldl (d : ScatterDims s si u) (x : s.Idx → α) (idx : IVec si w) (upd : u.Idx → α) :
    Host.scatter d (fun _ b => b) x idx upd =
      (List.finRange u.numel).foldl
        (step (fun n => d.resultIdx? (u.rowMajor.symm n) idx) (fun n => upd (u.rowMajor.symm n))) x := by
  unfold Host.scatter
  refine congrArg (fun f => List.foldl f x (List.finRange u.numel)) ?_
  funext r n
  unfold step
  beta_reduce
  generalize d.resultIdx? (u.rowMajor.symm n) idx = o
  cases o <;> rfl

/-- An element no update lands on keeps the operand's value. -/
theorem scatter_set_of_forall_ne (d : ScatterDims s si u) (x : s.Idx → α) (idx : IVec si w) (upd : u.Idx → α)
    (i : s.Idx) (h : ∀ j, d.resultIdx? j idx ≠ some i) : Host.scatter d (fun _ b => b) x idx upd i = x i := by
  rw [scatter_set_eq_foldl]
  exact foldl_step_miss _ _ i _ x fun n _ => h _

/-- When update index `j` lands on `i` and is the only update index that does, the element at `i` is
    the update at `j`. -/
theorem scatter_set_of_unique (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  rw [scatter_set_eq_foldl]
  have e := foldl_step_hit (fun n => d.resultIdx? (u.rowMajor.symm n) idx) (fun n => upd (u.rowMajor.symm n)) i
    (u.rowMajor j) (by simpa using hj) (List.finRange u.numel) x (List.nodup_finRange _) (List.mem_finRange _)
    (fun n _ hn => by
      have := huniq _ hn
      rw [← this]; simp)
  simpa using e

/-- Every update lands inside, update index `j` on `g j`, and `g` is injective: the element at `g j` is
    the update at `j`. -/
theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j :=
  scatter_set_of_unique d x idx upd (g j) j (hg j) fun j' hj' => hinj (Option.some.inj ((hg j').symm.trans hj'))

/-- Every update lands inside, update index `j` on `g j`: an element that is no `g j` keeps the
    operand's value. -/
theorem scatter_set_miss (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i :=
  scatter_set_of_forall_ne d x idx upd i fun j e => hi j (Option.some.inj ((hg j).symm.trans e))

end Scatter

end Idealize.ShloMosaic.ScatterSet
-- ==== Proof.RefLabels.lean ====
/-
  The labels with column 0 cleared, read at an index.

  `labels.at[:, 0].set(0)` is a replacing scatter of a zero vector of 65536 entries at the one column index 0:
  update j lands at (j, 0), inside the array, and distinct updates land on distinct rows.  So the result holds
  the update (zero) at every (r, 0) and the operand's entry everywhere else: the specification's `clip`.
-/
import proofs.«142532_j41180146434453_2_alg».proof.Proof.RefTerm
import proofs.«142532_j41180146434453_2_alg».proof.Proof.Spec
import proofs.«142532_j41180146434453_2_alg».proof.Proof.LibScatterSet
import Idealize.ShloMosaic.PureOps.Ideal.Laws
import Idealize.ShloMosaic.Lib.ValueLayout
import Idealize.ShloMosaic.Lib.Pipeline.Value

noncomputable section

open scoped BigOperators

namespace Cert.ReferenceIdeal.RefLabels

open Cert.ReferenceIdeal Cert.ReferenceIdeal.Gen Cert.ReferenceIdeal.RefTerm Idealize.ShloMosaic Idealize.ShloMosaic.ValueIdx
open Cert.MatLoss (Arr rowOf clip clip_zero)

/-- The scatter's dimension numbers: the update vector runs down the rows, the one scatter index names a column. -/
abbrev D := scatter_S65536x512_S1_S65536_0_1_1_0

/-- The scatter indices: the one column index, the integer zero. -/
abbrev idx0 : IVec S1 32 := broadcastInDim S1 ![] bcast_S_S1 (constantI S_ 32 0#32)

/-- Where update `j` lands: row `j`, column 0. -/
def land (j : S65536.Idx) : S65536x512.Idx := ix2 (j 0) (0 : Fin 512)

theorem start_row (j : S65536.Idx) : D.start j idx0 (0 : Fin 2) = 0 := rfl
theorem start_col (j : S65536.Idx) : D.start j idx0 (1 : Fin 2) = 0 := rfl
theorem window_row (j : S65536.Idx) : D.window j (0 : Fin 2) = (j 0).val := rfl
theorem window_col (j : S65536.Idx) : D.window j (1 : Fin 2) = 0 := rfl

/-- Every update lands inside the array, update `j` at (j, 0): the start index is the zero column, the window
    coordinate is the row. -/
theorem lands (j : S65536.Idx) : D.resultIdx? j idx0 = some (land j) := by
  have hj : (j 0).val < 65536 := (j 0).isLt
  have h : ∀ a : Fin 2, 0 ≤ D.start j idx0 a + D.window j a ∧ D.start j idx0 a + D.window j a < S65536x512.size a := by
    intro a
    match a with
    | ⟨0, _⟩ =>
      show 0 ≤ D.start j idx0 (0 : Fin 2) + D.window j (0 : Fin 2)
        ∧ D.start j idx0 (0 : Fin 2) + D.window j (0 : Fin 2) < ((65536 : ℕ) : ℤ)
      rw [start_row, window_row]
      omega
    | ⟨1, _⟩ =>
      show 0 ≤ D.start j idx0 (1 : Fin 2) + D.window j (1 : Fin 2)
        ∧ D.start j idx0 (1 : Fin 2) + D.window j (1 : Fin 2) < ((512 : ℕ) : ℤ)
      rw [start_col, window_col]
      omega
  unfold ScatterDims.resultIdx?
  rw [dif_pos h]
  refine congrArg some (funext fun a => Fin.ext ?_)
  match a with
  | ⟨0, _⟩ =>
    show (D.start j idx0 (0 : Fin 2) + D.window j (0 : Fin 2)).toNat = (j 0).val
    rw [start_row, window_row]
    omega
  | ⟨1, _⟩ =>
    show (D.start j idx0 (1 : Fin 2) + D.window j (1 : Fin 2)).toNat = 0
    rw [start_col, window_col]
    rfl

/-- Distinct updates land on distinct rows. -/
theorem land_injective : Function.Injective land := fun j j' e => by
  have h0 : j 0 = j' 0 := congrArg (fun i : S65536x512.Idx => i 0) e
  funext a
  match a with
  | ⟨0, _⟩ => exact h0

/-- The labels after the scatter, read at (r, c): zero in column 0, the label elsewhere. -/
theorem labels_apply (Y : Arr) (r : Fin 65536) (c : Fin 512) :
    labels (F := Ideal) Y (ix2 r c) = clip (rowOf Y r) c := by
  unfold labels
  by_cases hc : c.val = 0
  · have hc' : c = (0 : Fin 512) := Fin.ext hc
    subst hc'
    refine (ScatterSet.scatter_set_hit D Y idx0 (zeroV (F := Ideal)) land lands land_injective (ix1 r)).trans ?_
    rw [clip_zero]
    exact Ideal.ofBits_zero_f32
  · refine (ScatterSet.scatter_set_miss D Y idx0 (zeroV (F := Ideal)) land lands (ix2 r c) (fun j e => hc ?_)).trans ?_
    · exact (congrArg (fun i : S65536x512.Idx => (i 1).val) e).symm
    · unfold clip rowOf
      rw [if_neg hc]

end Cert.ReferenceIdeal.RefLabels

end
-- ==== Proof.RefElem.lean ====
/-
  The reference's element-wise chains, one extended real at a time.

  * The log-sigmoid as the program spells one element of it — the negation, the softplus chain with its
    not-a-number test (a comparison of a value with itself, which never holds among the extended reals, so the
    selection takes the softplus branch), subtracting and adding the zero word, the absolute value as a maximum —
    is the specification's `logSigmoid`.
  * The comparison "greater than the zero word" converted to a float is 1 when the value is positive, else 0.
  * The word `0xFF800000` denotes -∞.
-/
import proofs.«142532_j41180146434453_2_alg».proof.Proof.Spec
import Idealize.ShloMosaic.PureOps.Ideal.Laws

noncomputable section

namespace Cert.ReferenceIdeal.RefElem

open Idealize.ShloMosaic Cert.MatLoss

/-- One element of the program's log-sigmoid chain, at the ideal values. -/
def lsElem (z : EReal) : EReal :=
  -(Scalar.select
      (Ideal.cmp .une (-z - Ideal.ofBits .f32 0x00000000#32) (-z - Ideal.ofBits .f32 0x00000000#32))
      (-z + Ideal.ofBits .f32 0x00000000#32)
      (max (-z) (Ideal.ofBits .f32 0x00000000#32)
        + Ideal.log1p (Ideal.exp (-(max (-z - Ideal.ofBits .f32 0x00000000#32) (-(-z - Ideal.ofBits .f32 0x00000000#32)))))))

/-- A value never differs from itself. -/
theorem cmp_une_self (x : EReal) : Ideal.cmp .une x x = 0#1 := by
  unfold Ideal.cmp
  simp

/-- The program's spelling of one element of the log-sigmoid is the specification's. -/
theorem lsElem_eq (z : EReal) : lsElem z = logSigmoid z := by
  unfold lsElem logSigmoid softplus
  rw [Ideal.ofBits_zero_f32, sub_zero, cmp_une_self, ValueIdx.select_zero]

/-- "Greater than the zero word", converted to a float: 1 for a positive value, else 0. -/
theorem gt_zero_elem (p : EReal) :
    (((Ideal.cmp .ogt p (Ideal.ofBits .f32 0x00000000#32)).toNat : ℝ) : EReal) = if 0 < p then 1 else 0 := by
  rw [Ideal.ofBits_zero_f32]
  unfold Ideal.cmp
  by_cases h : (0 : EReal) < p
  · simp [h]
  · simp [h]

/-- The word `0xFF800000` denotes -∞. -/
theorem neg_inf_word : Ideal.ofBits .f32 0xFF800000#32 = (⊥ : EReal) := by simp [Ideal.ofBits, Ideal.ieee]

end Cert.ReferenceIdeal.RefElem

end
-- ==== Proof.RefReduce.lean ====
/-
  The reference's reductions and its column read, at an index, at the ideal values.

  * A sum along the rows of a 65536 × 512 array from the zero word is, at row r, the sum of the row's entries.
  * A total over a vector of 65536 entries from the zero word is the sum over the rows.
  * A column [a, 1] reshaped to a vector [a] reads the column's entry; with the slice [0:65536, 0:1] before it,
    the vector is column 0 of the array.
  * The word `0x3F800000` denotes 1.
-/
import proofs.«142532_j41180146434453_2_alg».proof.Proof.RefTerm
import proofs.«142532_j41180146434453_2_alg».proof.Proof.Spec
import proofs.«142532_j41180146434453_2_alg».proof.Proof.LibRowReduceColumn
import proofs.«142532_j41180146434453_2_alg».proof.Proof.LibKeepdimsColumn
import Idealize.ShloMosaic.PureOps.Ideal.Laws
import Idealize.ShloMosaic.Lib.ValueLayout
import Idealize.ShloMosaic.Lib.Pipeline.Value

noncomputable section

open scoped BigOperators

namespace Cert.ReferenceIdeal.RefReduce

open Cert.ReferenceIdeal Cert.ReferenceIdeal.Gen Cert.ReferenceIdeal.RefTerm Idealize.ShloMosaic Idealize.ShloMosaic.ValueIdx
open Cert.MatLoss (Arr)

/-- The row reduction's shape fact in the form that names the inserted index. -/
theorem rowReduces : S65536x512.Reduces [1] S65536 := by decide

/-- A sum along the rows from the zero word, read at row `r`: the sum of the row's 512 entries. -/
theorem rowSum_apply (v : Arr) (r : Fin 65536) :
    Host.reduceAdd (F := Ideal) (φ := .f32) v (constant S_ .f32 0x00000000#32) reducesTo_S65536x512_S65536_d1 h_S_ (ix1 r)
      = ∑ c : Fin 512, v (ix2 r c) := by
  refine (Ideal.hostReduceAdd_single reducesTo_S65536x512_S65536_d1 rowReduces v (Ideal.ofBits .f32 0x00000000#32) (ix1 r)).trans ?_
  rw [Ideal.ofBits_zero_f32, zero_add]
  exact Finset.sum_congr rfl fun d _ => congrArg v (Cert.Lib.RowReduceColumn.lift_row rowReduces r d)

/-- A total over the 65536 rows from the zero word: the sum over the rows. -/
theorem total_apply (v : S65536.Idx → EReal) (i : S_.Idx) :
    Host.reduceAdd (F := Ideal) (φ := .f32) v (constant S_ .f32 0x00000000#32) reducesTo_S65536_S_d0 h_S_ i
      = ∑ r : Fin 65536, v (ix1 r) := by
  refine (Ideal.hostReduceAdd_total reducesTo_S65536_S_d0 (fun b => b.elim0) v (Ideal.ofBits .f32 0x00000000#32) i).trans ?_
  rw [Ideal.ofBits_zero_f32, zero_add]
  exact Cert.LibKeepdims.sum_idx1 v

/-- A column [a, 1] cast to the vector [a] reads, at `i`, the column at (i, 0): row-major, `i · 1 + 0 = i`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column 0 of an array as a vector, read at row `r`. -/
theorem col0_apply (X : Arr) (r : Fin 65536) : col0 (F := Ideal) X (ix1 r) = X (ix2 r (0 : Fin 512)) := by
  unfold col0
  refine (shapeCast_a1_a_apply _ shapeCasts_S65536x1_S65536 r).trans ?_
  exact slice2_axis1_apply 0 X slices_S65536x512_S65536x1_0_0 r (0 : Fin 1) (0 : Fin 512) rfl

/-- The word `0x3F800000` denotes 1. -/
theorem one_word : Ideal.ofBits .f32 0x3F800000#32 = (1 : EReal) := by
  simp [Ideal.ofBits, Ideal.ieee]
  rw [← EReal.coe_mul]
  norm_num

end Cert.ReferenceIdeal.RefReduce

end
-- ==== Proof.RefLoss1.lean ====
/-
  The reference's first loss, read as the specification's.

  Row by row: the row sum of the cleared labels is `posCount`; the comparison "row sum > 0" converted to a float
  is `rowMask`; the log-sigmoid of minus column 0 plus the label-weighted row sum of the log-sigmoids is `term`.
  The two totals over the 65536 rows are then `S2` (indicator × (1 + row sum)) and `S1` (indicator × term), and
  the first loss is the quotient of minus the second by the first.
-/
import proofs.«142532_j41180146434453_2_alg».proof.Proof.RefTerm
import proofs.«142532_j41180146434453_2_alg».proof.Proof.RefElem
import proofs.«142532_j41180146434453_2_alg».proof.Proof.RefLabels
import proofs.«142532_j41180146434453_2_alg».proof.Proof.RefReduce
import proofs.«142532_j41180146434453_2_alg».proof.Proof.Spec

noncomputable section

open scoped BigOperators

namespace Cert.ReferenceIdeal.RefLoss1

open Cert.ReferenceIdeal Cert.ReferenceIdeal.Gen Cert.ReferenceIdeal.RefTerm Cert.ReferenceIdeal.RefElem
  Cert.ReferenceIdeal.RefLabels Cert.ReferenceIdeal.RefReduce Idealize.ShloMosaic Idealize.ShloMosaic.ValueIdx
open Cert.MatLoss (Arr rowOf clip posCount rowMask term a1 a2 logSigmoid)

/-! ## Element-wise operations at an index, over variable operands -/

theorem hostNegf_apply {s : Shape} (x : s.Idx → EReal) (i : s.Idx) :
    Host.negf (F := Ideal) (φ := .f32) x i = -(x i) := rfl

theorem hostDivf_apply {s : Shape} (x y : s.Idx → EReal) (i : s.Idx) :
    Host.divf (F := Ideal) (φ := .f32) x y i = Ideal.div (x i) (y i) := rfl

/-- "Greater than zero" converted to a float, on a vector. -/
theorem gt_zero_vec (p : S65536.Idx → EReal) (i : S65536.Idx) :
    uitofp (F := Ideal) .f32 (cmpf (F := Ideal) (φ := .f32) .ogt p (zeroV (F := Ideal))) i = if 0 < p i then 1 else 0 :=
  gt_zero_elem (p i)

/-- The word of 1 repeated over a vector. -/
theorem one_vec (i : S65536.Idx) :
    broadcastInDim S65536 ![] bcast_S_S65536 (constant (F := Ideal) S_ .f32 0x3F800000#32) i = (1 : EReal) :=
  one_word

/-- The log-sigmoid chain on a vector, element by element. -/
theorem logSigV_apply (x : S65536.Idx → EReal) (i : S65536.Idx) : logSigV (F := Ideal) x i = logSigmoid (x i) :=
  (show logSigV (F := Ideal) x i = lsElem (x i) from rfl).trans (lsElem_eq _)

/-- The log-sigmoid chain on an array, element by element. -/
theorem logSigM_apply (x : Arr) (i : S65536x512.Idx) : logSigM (F := Ideal) x i = logSigmoid (x i) :=
  (show logSigM (F := Ideal) x i = lsElem (x i) from rfl).trans (lsElem_eq _)

/-! ## Row by row -/

/-- The row sums of the cleared labels. -/
theorem posCnt_apply (Y : Arr) (r : Fin 65536) : posCnt (F := Ideal) Y (ix1 r) = posCount (rowOf Y r) := by
  unfold posCnt
  refine (rowSum_apply (labels (F := Ideal) Y) r).trans ?_
  unfold posCount
  exact Finset.sum_congr rfl fun c _ => labels_apply Y r c

/-- The rows' indicator. -/
theorem mask_apply (Y : Arr) (r : Fin 65536) : mask (F := Ideal) Y (ix1 r) = rowMask (rowOf Y r) := by
  unfold mask rowMask
  refine (gt_zero_vec _ _).trans ?_
  rw [posCnt_apply]

/-- The per-row term. -/
theorem termV_apply (X Y : Arr) (r : Fin 65536) : termV (F := Ideal) X Y (ix1 r) = term (rowOf X r) (rowOf Y r) := by
  unfold termV term
  refine (addf_apply _ _ _).trans ?_
  refine congrArg₂ (· + ·) ?_ ?_
  · refine (logSigV_apply _ _).trans ?_
    refine congrArg logSigmoid ?_
    refine (hostNegf_apply _ _).trans ?_
    exact congrArg Neg.neg (col0_apply X r)
  · refine (rowSum_apply _ r).trans ?_
    exact Finset.sum_congr rfl fun c _ =>
      (mulf_apply _ _ _).trans (congrArg₂ (· * ·) (labels_apply Y r c) (logSigM_apply X (ix2 r c)))

/-! ## The two totals and their quotient -/

/-- The total of indicator × (1 + row sum) is the specification's denominator. -/
theorem countS_apply (Y : Arr) (i : S_.Idx) : countS (F := Ideal) Y i = Cert.MatLoss.S2 Y := by
  unfold countS
  refine (total_apply _ i).trans ?_
  unfold Cert.MatLoss.S2
  refine Finset.sum_congr rfl fun r _ => ?_
  refine (mulf_apply _ _ _).trans ?_
  unfold a2
  refine congrArg₂ (· * ·) (mask_apply Y r) ?_
  refine (addf_apply _ _ _).trans ?_
  exact congrArg₂ (· + ·) (one_vec _) (posCnt_apply Y r)

/-- The total of indicator × term is the specification's numerator. -/
theorem numS_apply (X Y : Arr) (i : S_.Idx) : numS (F := Ideal) X Y i = Cert.MatLoss.S1 X Y := by
  unfold numS
  refine (total_apply _ i).trans ?_
  unfold Cert.MatLoss.S1
  refine Finset.sum_congr rfl fun r _ => ?_
  refine (mulf_apply _ _ _).trans ?_
  unfold a1
  exact congrArg₂ (· * ·) (mask_apply Y r) (termV_apply X Y r)

/-- The first loss: minus the numerator over the denominator. -/
theorem loss1_eq (X Y : Arr) :
    loss1 (F := Ideal) X Y = fun _ => Ideal.div (-(Cert.MatLoss.S1 X Y)) (Cert.MatLoss.S2 Y) := by
  funext i
  unfold loss1
  refine (hostDivf_apply _ _ i).trans ?_
  refine congrArg₂ Ideal.div ?_ (countS_apply Y i)
  refine (hostNegf_apply _ i).trans ?_
  exact congrArg Neg.neg (numS_apply X Y i)

end Cert.ReferenceIdeal.RefLoss1

end
-- ==== Proof.RefLoss2.lean ====
/-
  The reference's second loss, read back. Row by row the masked logits are the logits minus the cleared labels times the
  word of 10³⁰; the log-softmax subtracts the row maximum (taken from −∞, and once more against −∞, which changes
  nothing) and then the logarithm of the row's sum of exponentials; column 0 of that, negated, is the row loss in the
  reference's arrangement; the rows' losses are added up from zero and divided by the word of 65536.
-/
import proofs.«142532_j41180146434453_2_alg».proof.Proof.RefTerm
import proofs.«142532_j41180146434453_2_alg».proof.Proof.Spec
import proofs.«142532_j41180146434453_2_alg».proof.Proof.LibKeepdimsColumn
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.RefLoss2

open Cert.ReferenceIdeal Cert.ReferenceIdeal.Gen Cert.ReferenceIdeal.RefTerm Cert.MatLoss
open Idealize.ShloMosaic Idealize.ShloMosaic.ValueIdx

/-- The word of −∞ is the bottom of the extended reals. -/
theorem neg_inf_word : Ideal.ofBits .f32 0xFF800000#32 = (⊥ : EReal) := by simp [Ideal.ofBits, Ideal.ieee]

theorem hR : S65536x512.Reduces [1] S65536 := by decide

/-- Row `r` with column `d` put back is (r, d). -/
theorem lift_row (r : Fin 65536) (d : Fin (S65536x512.size 1)) :
    hR.lift (ix1 r) d = ix2 r (⟨d.val, d.isLt⟩ : Fin 512) := by
  funext c; apply Fin.ext
  fin_cases c <;> rfl

/-- A word repeated over the whole array reads the word's value everywhere. -/
theorem splat_apply (w : BitVec 32) (j : S65536x512.Idx) :
    broadcastInDim S65536x512 ![] bcast_S_S65536x512 (constant (F := Ideal) S_ .f32 w) j = Ideal.ofBits .f32 w :=
  broadcastInDim_apply _ _ _ j ix0 (fun a => a.elim0)

theorem splatV_apply (w : BitVec 32) (j : S65536.Idx) :
    broadcastInDim S65536 ![] bcast_S_S65536 (constant (F := Ideal) S_ .f32 w) j = Ideal.ofBits .f32 w :=
  broadcastInDim_apply _ _ _ j ix0 (fun a => a.elim0)

/-- A column repeated across the 512 columns reads, at (r, c), the column's entry r. -/
theorem spread_apply (w : S65536x1.Idx → EReal) (r : Fin 65536) (c : Fin 512) :
    spread (F := Ideal) w (ix2 r c) = w (ix2 r (0 : Fin 1)) :=
  broadcastInDim_apply _ _ _ (ix2 r c) (ix2 r (0 : Fin 1)) (fun ax => by
    match ax with
    | ⟨0, _⟩ => rfl
    | ⟨1, _⟩ => rfl)

/-- A vector made a column reads, at (r, u), the vector's entry r. -/
theorem column_apply (v : S65536.Idx → EReal) (r : Fin 65536) (u : Fin 1) :
    broadcastInDim S65536x1 ![0] bcast_S65536_S65536x1_0 v (ix2 r u) = v (ix1 r) :=
  broadcastInDim_apply _ _ _ (ix2 r u) (ix1 r) (fun ax => by
    match ax with
    | ⟨0, _⟩ => rfl)

/-- Column 0 of an array, as a vector, reads at r the array's entry (r, 0). -/
theorem col0_apply (Z : Arr) (r : Fin 65536) : col0 (F := Ideal) Z (ix1 r) = Z (ix2 r (0 : Fin 512)) := by
  unfold col0
  refine (shapeCast_apply _ shapeCasts_S65536x1_S65536 (ix1 r) (ix2 r (0 : Fin 1)) ?_).trans ?_
  · rw [Shape.rowMajor_val_two, Shape.rowMajor_val_one]
    show r.val * 1 + 0 = r.val
    omega
  · exact extractStridedSlice_apply _ Z slices_S65536x512_S65536x1_0_0 (ix2 r (0 : Fin 1)) (ix2 r (0 : Fin 512)) (fun a => by
      match a with
      | ⟨0, _⟩ => show r.val = 0 + r.val; omega
      | ⟨1, _⟩ => rfl)

/-- A row sum from the zero word: the sum of the row's 512 entries. -/
theorem rowSum_apply (v : Arr) (r : Fin 65536) :
    Host.reduceAdd (F := Ideal) (φ := .f32) v (constant S_ .f32 0x00000000#32) reducesTo_S65536x512_S65536_d1 h_S_ (ix1 r)
      = ∑ c : Fin 512, v (ix2 r c) := by
  refine (Ideal.hostReduceAdd_single reducesTo_S65536x512_S65536_d1 hR v (Ideal.ofBits .f32 0x00000000#32) (ix1 r)).trans ?_
  rw [Ideal.ofBits_zero_f32, zero_add]
  exact Finset.sum_congr rfl fun d _ => congrArg v (lift_row r d)

/-- A total from the zero word: the sum of the 65536 entries. -/
theorem total_apply (v : S65536.Idx → EReal) (i : S_.Idx) :
    Host.reduceAdd (F := Ideal) (φ := .f32) v (constant S_ .f32 0x00000000#32) reducesTo_S65536_S_d0 h_S_ i
      = ∑ r : Fin 65536, v (ix1 r) := by
  refine (Ideal.hostReduceAdd_total reducesTo_S65536_S_d0 (fun b => b.elim0) v (Ideal.ofBits .f32 0x00000000#32) i).trans ?_
  rw [Ideal.ofBits_zero_f32, zero_add]
  exact Cert.LibKeepdims.sum_idx1 v

/-- The maximum against −∞ repeated over a vector changes nothing. -/
theorem maxWithBot_apply (v : S65536.Idx → EReal) (j : S65536.Idx) :
    maximumf (F := Ideal) (φ := .f32) (broadcastInDim S65536 ![] bcast_S_S65536 (constant (F := Ideal) S_ .f32 0xFF800000#32)) v j = v j := by
  rw [maximumf_apply, splatV_apply, neg_inf_word, max_bot_left]

/-- A max-reduce along the rows from −∞: the fold of `max` from −∞ over the row's entries. -/
theorem reduceMax_apply (Z : Arr) (r : Fin 65536) :
    Host.reduce (FloatOps.maximumf (F := Ideal) (φ := .f32)) Z (constant (F := Ideal) S_ .f32 0xFF800000#32)
        reducesTo_S65536x512_S65536_d1 h_S_ (ix1 r)
      = Finset.univ.fold max ⊥ (fun c : Fin 512 => Z (ix2 r c)) := by
  refine (Host.reduce_eq_fold_single _ Z _ reducesTo_S65536x512_S65536_d1 hR h_S_ (ix1 r)).trans ?_
  rw [constant_apply, neg_inf_word]
  exact congrArg (fun f => Finset.fold max (⊥ : EReal) f Finset.univ) (funext fun k => congrArg Z (lift_row r k))

/-- The row maximum as the log-softmax takes it. -/
theorem rowMaxV_apply (Z : Arr) (r : Fin 65536) :
    rowMaxV (F := Ideal) Z (ix1 r) = Finset.univ.fold max ⊥ (fun c : Fin 512 => Z (ix2 r c)) := by
  unfold rowMaxV
  rw [maxWithBot_apply]
  exact reduceMax_apply Z r

/-! ## The host's pointwise operations at an index -/

theorem hostNeg_apply {s : Shape} (a : FVec Ideal s .f32) (i : s.Idx) : Host.negf a i = -(a i) := rfl
theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl
theorem hostDiv_apply {s : Shape} (a b : FVec Ideal s .f32) (i : s.Idx) : Host.divf a b i = Ideal.div (a i) (b i) := rfl

/-! ## The second loss, row by row -/

variable (X Y : Arr)

/-- The masked logits at (r, c). -/
theorem logit2_apply (hlab : ∀ (r : Fin 65536) (c : Fin 512), labels (F := Ideal) Y (ix2 r c) = clip (rowOf Y r) c)
    (r : Fin 65536) (c : Fin 512) :
    logit2 (F := Ideal) X Y (ix2 r c) = masked (rowOf X r) (rowOf Y r) c := by
  unfold logit2 masked
  rw [subf_apply, mulf_apply, hlab, splat_apply]
  rfl

/-- Their row maximum. -/
theorem rowMax_logit2 (hlab : ∀ (r : Fin 65536) (c : Fin 512), labels (F := Ideal) Y (ix2 r c) = clip (rowOf Y r) c)
    (r : Fin 65536) :
    rowMaxV (F := Ideal) (logit2 (F := Ideal) X Y) (ix1 r) = rowMax (rowOf X r) (rowOf Y r) := by
  rw [rowMaxV_apply]
  unfold rowMax
  exact congrArg (fun f => Finset.fold max (⊥ : EReal) f Finset.univ) (funext fun c => logit2_apply X Y hlab r c)

/-- An array shifted by its row maxima, at (r, c). -/
theorem shifted_apply (Z : Arr) (r : Fin 65536) (c : Fin 512) :
    shifted (F := Ideal) Z (ix2 r c) = Z (ix2 r c) - rowMaxV (F := Ideal) Z (ix1 r) := by
  unfold shifted
  rw [subf_apply, spread_apply, column_apply]

/-- The log-softmax at (r, c). -/
theorem logSoftmax_apply (Z : Arr) (r : Fin 65536) (c : Fin 512) :
    logSoftmax (F := Ideal) Z (ix2 r c)
      = (Z (ix2 r c) - rowMaxV (F := Ideal) Z (ix1 r))
        - Ideal.log (∑ c' : Fin 512, Ideal.exp (Z (ix2 r c') - rowMaxV (F := Ideal) Z (ix1 r))) := by
  unfold logSoftmax
  rw [subf_apply]
  rw [spread_apply]
  rw [shifted_apply]
  rw [hostLog_apply]
  rw [column_apply]
  rw [rowSum_apply]
  have hs : (∑ c' : Fin 512, Host.exp (F := Ideal) (φ := .f32) (shifted (F := Ideal) Z) (ix2 r c') : EReal)
      = ∑ c' : Fin 512, Ideal.exp (Z (ix2 r c') - rowMaxV (F := Ideal) Z (ix1 r)) :=
    Finset.sum_congr rfl fun c' _ => by rw [hostExp_apply, shifted_apply]
  rw [hs]

/-- A row's loss in the reference's arrangement. -/
theorem loss2V_apply (hlab : ∀ (r : Fin 65536) (c : Fin 512), labels (F := Ideal) Y (ix2 r c) = clip (rowOf Y r) c)
    (r : Fin 65536) : loss2V (F := Ideal) X Y (ix1 r) = a3r (rowOf X r) (rowOf Y r) := by
  unfold loss2V a3r sumExp
  rw [hostNeg_apply, col0_apply, logSoftmax_apply, rowMax_logit2 X Y hlab, logit2_apply X Y hlab]
  have hs : (∑ c : Fin 512, Ideal.exp (logit2 (F := Ideal) X Y (ix2 r c) - rowMax (rowOf X r) (rowOf Y r)))
      = ∑ c : Fin 512, Ideal.exp (masked (rowOf X r) (rowOf Y r) c - rowMax (rowOf X r) (rowOf Y r)) :=
    Finset.sum_congr rfl fun c _ => by rw [logit2_apply X Y hlab]
  rw [hs]

/-- The second loss: the rows' losses added up, over the word of 65536. -/
theorem loss2_eq (hlab : ∀ (r : Fin 65536) (c : Fin 512), labels (F := Ideal) Y (ix2 r c) = clip (rowOf Y r) c) :
    loss2 (F := Ideal) X Y = fun _ => Ideal.div (S3r X Y) nRows := by
  funext i
  unfold loss2 S3r nRows
  rw [hostDiv_apply]
  rw [total_apply]
  rw [constant_apply]
  have hs : (∑ r : Fin 65536, loss2V (F := Ideal) X Y (ix1 r)) = ∑ r : Fin 65536, a3r (rowOf X r) (rowOf Y r) :=
    Finset.sum_congr rfl fun r _ => loss2V_apply X Y hlab r
  rw [hs]

end Cert.ReferenceIdeal.RefLoss2

end
-- ==== Proof.RefValue.lean ====
/-
  The reference's result is the specification's loss.

  The pure term the reference leaves in its result buffer is the sum of its two losses; the first is
  `(-S1) / S2`, the second `S3r / 65536`, each read index by index from the program's operations, so the term
  is `refLoss` of the two argument arrays.  With the reference's run, every weakly fair execution of the
  reference ends with the result buffer at `refLoss` of the arguments' launch contents and the arguments
  unchanged.
-/
import proofs.«142532_j41180146434453_2_alg».proof.Proof.RefRun
import proofs.«142532_j41180146434453_2_alg».proof.Proof.RefLabels
import proofs.«142532_j41180146434453_2_alg».proof.Proof.RefLoss1
import proofs.«142532_j41180146434453_2_alg».proof.Proof.RefLoss2
import proofs.«142532_j41180146434453_2_alg».proof.Proof.Spec

noncomputable section

namespace Cert.ReferenceIdeal.RefValue

open Cert.ReferenceIdeal Idealize.ShloMosaic Idealize.ShloMosaic.TcCoe Idealize.SL.Sem

/-- The reference's term at the ideal values is the specification's arrangement of the loss. -/
theorem refTerm_eq (X Y : Cert.MatLoss.Arr) :
    RefTerm.refTerm (F := Ideal) X Y = fun _ => Cert.MatLoss.refLoss X Y := by
  funext i
  unfold RefTerm.refTerm
  refine (ValueIdx.addf_apply _ _ _).trans ?_
  rw [RefLoss1.loss1_eq X Y, RefLoss2.loss2_eq X Y (RefLabels.labels_apply Y)]
  rfl

/-- On every device, from any memory with zero counters: every weakly fair execution of the reference terminates
    with the result buffer at the specification's loss of the arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32)
          = (fun _ => Cert.MatLoss.refLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refTerm_eq _ _), (h c).2⟩) (RefRun.run (F := Ideal) m ρ)

end Cert.ReferenceIdeal.RefValue

end
-- ==== Proof.LibFiniteEReal.lean ====
/-
  Two facts about real numbers among the extended reals.

  * An extended real whose absolute value (`max x (-x)`) compares below the word of `+∞` is a real number: the test
    an "every input is finite" precondition makes of each element, read back.
  * For a real `r` and ANY extended real `s`, `r + (s - r) = s`: subtracting a finite number and adding it back is
    the identity even at `s = ±∞` (it is not when `r` is infinite).
-/
import Idealize.ShloMosaic.PureOps.Ideal

noncomputable section

namespace Cert.Lib.FiniteEReal

open Idealize.ShloMosaic

/-- The 32-bit word `0x7F800000` denotes `+∞`. -/
theorem inf_word : Ideal.ofBits .f32 0x7F800000#32 = (⊤ : EReal) := by simp [Ideal.ofBits, Ideal.ieee]

/-- An extended real whose absolute value is (ordered-)below the word of `+∞` is a real number. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h1 : Ideal.cmp .olt (max x (-x)) (Ideal.ofBits .f32 0x7F800000#32) = 1#1 := h
  rw [inf_word] at h1
  have h2 : max x (-x) < (⊤ : EReal) := by
    by_contra hn
    have : Ideal.cmp .olt (max x (-x)) ⊤ = 0#1 := by
      unfold Ideal.cmp
      rw [decide_eq_false hn]; rfl
    rw [this] at h1
    exact absurd h1 (by decide)
  induction x using EReal.rec with
  | bot => exact absurd h2 (by simp)
  | coe r => exact ⟨r, rfl⟩
  | top => exact absurd h2 (by simp)

/-- Adding back what was subtracted: for a real `r` and any extended real `s`, `r + (s - r) = s`. (At `s = ±∞` both
    sides are that infinity, because `r` is finite; at a real `s` it is the identity of the reals.) -/
theorem add_sub_cancel_real (r : ℝ) (s : EReal) : (r : EReal) + (s - (r : EReal)) = s := by
  induction s using EReal.rec with
  | bot => rw [EReal.bot_sub, EReal.add_bot]
  | coe v => rw [← EReal.coe_sub, ← EReal.coe_add]; exact congrArg _ (by ring)
  | top => rw [EReal.top_sub_coe, EReal.coe_add_top]

end Cert.Lib.FiniteEReal

end
-- ==== Proof.PreFacts.lean ====
/-
  What the precondition says, read back.

  The precondition is one word: the conjunction of "every logit's absolute value is below +∞", "every label's absolute
  value is below +∞", and "the maximum over the rows of (the sum of the row's labels in columns 1 to 511) is above 0".
  When that word is 1: every entry of both arrays is a real number (an extended real whose absolute value is below +∞
  is neither infinity), and some row has a positive label sum (a maximum folded from −∞ that is above 0 is attained
  by one of the folded values; a row's sum over columns 1 to 511 is its sum over all columns with column 0 cleared).
-/
import proofs.«142532_j41180146434453_2_alg».proof.Proof.Spec
import proofs.«142532_j41180146434453_2_alg».proof.Proof.Gen.Pre_finite_inputs
import proofs.«142532_j41180146434453_2_alg».proof.Proof.LibFiniteEReal
import Idealize.ShloMosaic.Lib.ReduceAll
import Idealize.ShloMosaic.PureOps.Reduce
import Idealize.ShloMosaic.PureOps.Ideal.Laws
import Idealize.ShloMosaic.Lib.Pipeline.Value

noncomputable section

open scoped BigOperators

namespace Cert.MatLoss

open Idealize.ShloMosaic Idealize.ShloMosaic.ValueIdx

/-- The scalar shape has one index. -/
instance subsingleton_scalar_idx : Subsingleton (⟨0, ![]⟩ : Shape).Idx := ⟨fun a b => funext fun d => d.elim0⟩

/-- A conjunction of two one-bit words at the scalar shape's one index that is 1: both words are 1 there. -/
theorem andi_ix0_eq_one (a b : IVec ⟨0, ![]⟩ 1) (h : andi a b ix0 = 1#1) : a ix0 = 1#1 ∧ b ix0 = 1#1 :=
  IntOp.andi_eq_one.1 h

/-- If "every entry's absolute value is below +∞", reduced by `and` over the whole array, came out 1, then every
    entry is a real number. -/
theorem all_real_of_all_abs_lt (V : Arr)
    (hb : (⟨0, ![]⟩ : Shape).BroadcastsInDim ⟨2, ![65536, 512]⟩ (![] : Fin 0 → Fin 2))
    (hr : (⟨2, ![65536, 512]⟩ : Shape).ReducesTo [0, 1] ⟨0, ![]⟩) (hu : 0 < (⟨0, ![]⟩ : Shape).numel)
    (e : Host.reduce IntOp.andi
          (cmpf (F := Ideal) (φ := .f32) .olt (Host.absf (F := Ideal) (φ := .f32) V)
            (broadcastInDim ⟨2, ![65536, 512]⟩ ![] hb (constant (F := Ideal) ⟨0, ![]⟩ .f32 0x7F800000#32)))
          (constantI ⟨0, ![]⟩ 1 1#1) hr hu ix0 = 1#1) :
    ∀ i, ∃ r : ℝ, V i = (r : EReal) := fun i =>
  Cert.Lib.FiniteEReal.real_of_abs_lt (V i) (Host.reduce_andi_all _ _ hr hu ix0 e i)

/-- A comparison word that is 1 says the strict inequality holds. -/
theorem lt_of_cmp_ogt (a b : EReal) (h : Ideal.cmp .ogt a b = 1#1) : b < a := by
  by_contra hn
  have : Ideal.cmp .ogt a b = 0#1 := by
    unfold Ideal.cmp
    rw [decide_eq_false hn]; rfl
  rw [this] at h
  exact absurd h (by decide)

/-- The reduced index `p` of a [65536, 511] array reduced along its rows, with column `d` put back, is (p, d). -/
theorem lift_row511 (h : (⟨2, ![65536, 511]⟩ : Shape).Reduces [1] (⟨1, ![65536]⟩ : Shape)) (p : Fin 65536)
    (d : Fin ((⟨2, ![65536, 511]⟩ : Shape).size 1)) : h.lift (ix1 p) d = ix2 p (⟨d.val, d.isLt⟩ : Fin 511) := by
  funext c; apply Fin.ext
  fin_cases c <;> rfl

/-- A row's label sum is the sum of its columns 1 to 511 (column 0 is cleared). -/
theorem posCount_eq (Y : Arr) (p : Fin 65536) :
    posCount (rowOf Y p) = ∑ k : Fin 511, Y (ix2 p (⟨k.val + 1, by omega⟩ : Fin 512)) := by
  unfold posCount
  rw [Fin.sum_univ_succ (n := 511)]
  rw [clip_zero, zero_add]
  refine Finset.sum_congr rfl fun k _ => ?_
  unfold clip rowOf
  rw [if_neg (by simp)]
  rfl

/-- The 32-bit word `0xFF800000` denotes `-∞`. -/
theorem neg_inf_word : Ideal.ofBits .f32 0xFF800000#32 = (⊥ : EReal) := by simp [Ideal.ofBits, Ideal.ieee]

/-- A maximum folded over a finite set that is above 0: the start value or one of the values is. (Stated for the
    ideal instance's maximum over an arbitrary finite set, where it is the extended reals' `max`.) -/
theorem pos_of_pos_fold_maximumf {ι : Type} (s : Finset ι) (b : Ideal .f32) (f : ι → Ideal .f32)
    (h : (0 : EReal) < s.fold (FloatOps.maximumf (F := Ideal) (φ := .f32)) b f) :
    (0 : EReal) < b ∨ ∃ x ∈ s, (0 : EReal) < f x :=
  (Finset.lt_fold_max (0 : EReal)).1 h

/-- The comparison "above the word 0", read at the scalar shape's one index at the ideal instance: the value there is
    above 0. -/
theorem pos_of_cmpf_ogt_zero (m : FVec Ideal ⟨0, ![]⟩ .f32)
    (e : cmpf (F := Ideal) (φ := .f32) .ogt m (constant (F := Ideal) ⟨0, ![]⟩ .f32 0x00000000#32) ix0 = 1#1) :
    (0 : EReal) < m ix0 := by
  have e1 : Ideal.cmp .ogt (m ix0) (Ideal.ofBits .f32 0x00000000#32) = 1#1 := e
  have hlt := lt_of_cmp_ogt _ _ e1
  rwa [Ideal.ofBits_zero_f32] at hlt

/-- If the maximum over the rows of (the sum of the row's labels in columns 1 to 511), compared above 0, came out 1,
    then some row has a positive label sum. -/
theorem exists_pos_row (Y : Arr)
    (hs : (⟨2, ![65536, 512]⟩ : Shape).Slices ![0, 1] ⟨2, ![65536, 511]⟩)
    (h1' : (⟨2, ![65536, 511]⟩ : Shape).ReducesTo [1] ⟨1, ![65536]⟩)
    (h0' : (⟨1, ![65536]⟩ : Shape).ReducesTo [0] ⟨0, ![]⟩)
    (hu : 0 < (⟨0, ![]⟩ : Shape).numel)
    (e : cmpf (F := Ideal) (φ := .f32) .ogt
          (Host.reduce FloatOps.maximumf
            (Host.reduceAdd (F := Ideal) (φ := .f32) (extractStridedSlice ⟨2, ![65536, 511]⟩ ![0, 1] Y hs)
              (constant (F := Ideal) ⟨0, ![]⟩ .f32 0x00000000#32) h1' hu)
            (constant (F := Ideal) ⟨0, ![]⟩ .f32 0xFF800000#32) h0' hu)
          (constant (F := Ideal) ⟨0, ![]⟩ .f32 0x00000000#32) ix0 = 1#1) :
    ∃ p : Fin 65536, 0 < posCount (rowOf Y p) := by
  have h1 : (⟨2, ![65536, 511]⟩ : Shape).Reduces [1] ⟨1, ![65536]⟩ := by decide
  -- the row sums, read at a row: 0 + the sum of the slice's row, and the slice at (p, k) is Y at (p, k + 1)
  have hrow : ∀ p : Fin 65536,
      Host.reduceAdd (F := Ideal) (φ := .f32) (extractStridedSlice ⟨2, ![65536, 511]⟩ ![0, 1] Y hs)
        (constant (F := Ideal) ⟨0, ![]⟩ .f32 0x00000000#32) h1' hu (ix1 p) = posCount (rowOf Y p) := by
    intro p
    refine (Ideal.hostReduceAdd_single h1' h1 _ _ (ix1 p)).trans ?_
    rw [posCount_eq]
    show Ideal.ofBits .f32 0x00000000#32 + _ = _
    rw [Ideal.ofBits_zero_f32, zero_add]
    refine Finset.sum_congr rfl fun k _ => ?_
    rw [lift_row511 h1 p k]
    refine extractStridedSlice_apply _ Y hs _ _ fun a => ?_
    match a with
    | ⟨0, _⟩ => show p.val = 0 + p.val; omega
    | ⟨1, _⟩ => show k.val + 1 = 1 + k.val; omega
  -- name the row sums; the maximum over the rows is above 0, and it is a fold of `max` from −∞ over the row indices
  generalize Host.reduceAdd (F := Ideal) (φ := .f32) (extractStridedSlice ⟨2, ![65536, 511]⟩ ![0, 1] Y hs)
        (constant (F := Ideal) ⟨0, ![]⟩ .f32 0x00000000#32) h1' hu = v at e hrow
  have hlt := pos_of_cmpf_ogt_zero _ e
  rw [Host.reduce_eq_fold FloatOps.maximumf v _ h0' hu ix0] at hlt
  rcases pos_of_pos_fold_maximumf _ _ _ hlt with hb | ⟨i, _, hi⟩
  · -- the start value is −∞, which is not above 0
    exfalso
    have hbot : (constant (F := Ideal) ⟨0, ![]⟩ .f32 0xFF800000#32) (Shape.Idx.first hu) = (⊥ : EReal) := neg_inf_word
    rw [hbot] at hb
    exact absurd hb (by simp)
  · -- a row index whose row sum is above 0
    obtain ⟨p, rfl⟩ : ∃ p : Fin 65536, i = ix1 p := ⟨i 0, eq_ix1 i⟩
    exact ⟨p, by rw [← hrow p]; exact hi⟩

/-- Under the precondition every logit and every label is a real number, and some row has a positive label sum. -/
theorem pre_facts (X Y : Arr) (h : Cert.Pre_finite_inputs.fn (F := Ideal) X Y = fun _ => 1#1) :
    (∀ i, ∃ r : ℝ, X i = (r : EReal)) ∧ (∀ i, ∃ r : ℝ, Y i = (r : EReal)) ∧
      ∃ p : Fin 65536, 0 < posCount (rowOf Y p) := by
  have h0 := congrFun h ValueIdx.ix0
  dsimp only [Cert.Pre_finite_inputs.fn] at h0
  obtain ⟨h8, h12⟩ := andi_ix0_eq_one _ _ h0
  obtain ⟨h3, h7⟩ := andi_ix0_eq_one _ _ h8
  exact ⟨all_real_of_all_abs_lt X _ _ _ h3, all_real_of_all_abs_lt Y _ _ _ h7, exists_pos_row Y _ _ _ _ h12⟩

end Cert.MatLoss

end
-- ==== Proof.lean ====
/-
  The certificate. Both idealized programs end with their result buffer at the loss of the two argument arrays, each in
  its own arrangement (the kernel: blockwise sums accumulated over a 2×16 grid, the sign taken after the quotient, the row
  loss as (max + log Σ) − x₀; the reference: whole-array sums, the sign before the quotient, the row loss as
  −((x₀ − max) − log Σ)). Under the precondition — every entry a real number, some row with a positive label sum — the
  two arrangements are equal. The frames are the generated ones; the reference's is its run with the result dropped.
-/
import proofs.«142532_j41180146434453_2_alg».proof.Defs
import proofs.«142532_j41180146434453_2_alg».proof.Proof.Gen.Kernel
import proofs.«142532_j41180146434453_2_alg».proof.Proof.Gen.Kernel.Frame
import proofs.«142532_j41180146434453_2_alg».proof.Proof.Gen.KernelIdeal
import proofs.«142532_j41180146434453_2_alg».proof.Proof.Gen.KernelIdeal.Frame
import proofs.«142532_j41180146434453_2_alg».proof.Proof.Gen.ReferenceIdeal
import proofs.«142532_j41180146434453_2_alg».proof.Proof.Gen.Pre_finite_inputs
import proofs.«142532_j41180146434453_2_alg».proof.Proof.Spec
import proofs.«142532_j41180146434453_2_alg».proof.Proof.KAcc
import proofs.«142532_j41180146434453_2_alg».proof.Proof.RefValue
import proofs.«142532_j41180146434453_2_alg».proof.Proof.PreFacts

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From memories that agree on the arguments both programs end at the loss of the same two arrays; the precondition
    makes the two arrangements equal. -/
theorem algebraic : Cert.algebraic_KernelIdeal_ReferenceIdeal := by
  intro m ρ m' ρ' hpre hagree
  refine ⟨fun c => fun _ => Cert.MatLoss.kerLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KAcc.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  obtain ⟨hX, hY, hpos⟩ := Cert.MatLoss.pre_facts _ _ (hpre c)
  funext _
  exact (Cert.MatLoss.loss_eq _ _ hX hY hpos).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
